-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S100000x128 : Shape := ⟨2, ![100000, 128]⟩
abbrev S10000x128 : Shape := ⟨2, ![10000, 128]⟩
abbrev S1000000 : Shape := ⟨1, ![1000000]⟩
abbrev S100000 : Shape := ⟨1, ![100000]⟩
abbrev S128x128 : Shape := ⟨2, ![128, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128x128 .f32) (main_arg7 : FVec F S128x128 .f32) (main_arg8 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S1000000x128 .f32) (main_arg1 : FVec F S100000x128 .f32) (main_arg2 : FVec F S10000x128 .f32) (main_arg3 : IVec S1000000 32) (main_arg4 : IVec S100000 32) (main_arg5 : FVec F S128x128 .f32) (main_arg6 : FVec F S128x128 .f32) (main_arg7 : FVec F S128x128 .f32) (main_arg8 : FVec F S128x128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S1000000x128 : Shape := ⟨2, ![1000000, 128]⟩
abbrev S100000x128 : Shape := ⟨2, ![100000, 128]⟩
abbrev S10000x128 : Shape := ⟨2, ![10000, 128]⟩
abbrev S1000000 : Shape := ⟨1, ![1000000]⟩
abbrev S100000 : Shape := ⟨1, ![100000]⟩
abbrev S128x128 : Shape := ⟨2, ![128, 128]⟩
abbrev S_ : Shape := ⟨0, ![]⟩
abbrev S1000000x1 : Shape := ⟨2, ![1000000, 1]⟩
abbrev S100000x1 : Shape := ⟨2, ![100000, 1]⟩
abbrev S10000x1 : Shape := ⟨2, ![10000, 1]⟩
abbrev S5000x128 : Shape := ⟨2, ![5000, 128]⟩

abbrev nBuf : Space → Nat
  | .hbm => 64
  | .vmem => 33
  | .smem => 0
  | _ => 0

abbrev bufTy : (tb : Table) → Fin (tcTables nBuf tb) → BufTy
  | .hbm, ⟨0, _⟩ => ⟨S1000000x128, .f32⟩
  | .hbm, ⟨1, _⟩ => ⟨S100000x128, .f32⟩
  | .hbm, ⟨2, _⟩ => ⟨S10000x128, .f32⟩
  | .hbm, ⟨3, _⟩ => ⟨S1000000, .i32⟩
  | .hbm, ⟨4, _⟩ => ⟨S100000, .i32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S100000x128, .f32⟩
  | .hbm, ⟨10, _⟩ => ⟨S10000x128, .f32⟩
  | .hbm, ⟨11, _⟩ => ⟨S_, .f32⟩
  | .hbm, ⟨12, _⟩ => ⟨S100000x128, .f32⟩
  | .hbm, ⟨13, _⟩ => ⟨S1000000x1, .i32⟩
  | .hbm, ⟨14, _⟩ => ⟨S100000x128, .f32⟩
  | .hbm, ⟨15, _⟩ => ⟨S_, .f32⟩
  | .hbm, ⟨16, _⟩ => ⟨S1000000x1, .f32⟩
  | .hbm, ⟨17, _⟩ => ⟨S_, .f32⟩
  | .hbm, ⟨18, _⟩ => ⟨S100000x1, .f32⟩
  | .hbm, ⟨19, _⟩ => ⟨S1000000x1, .i32⟩
  | .hbm, ⟨20, _⟩ => ⟨S100000x1, .f32⟩
  | .hbm, ⟨21, _⟩ => ⟨S_, .f32⟩
  | .hbm, ⟨22, _⟩ => ⟨S100000x1, .f32⟩
  | .hbm, ⟨23, _⟩ => ⟨S100000x1, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S10000x128, .f32⟩
  | .hbm, ⟨28, _⟩ => ⟨S100000x1, .i32⟩
  | .hbm, ⟨29, _⟩ => ⟨S10000x128, .f32⟩
  | .hbm, ⟨30, _⟩ => ⟨S_, .f32⟩
  | .hbm, ⟨31, _⟩ => ⟨S100000x1, .f32⟩
  | .hbm, ⟨32, _⟩ => ⟨S_, .f32⟩
  | .hbm, ⟨33, _⟩ => ⟨S10000x1, .f32⟩
  | .hbm, ⟨34, _⟩ => ⟨S100000x1, .i32⟩
  | .hbm, ⟨35, _⟩ => ⟨S10000x1, .f32⟩
  | .hbm, ⟨36, _⟩ => ⟨S_, .f32⟩
  | .hbm, ⟨37, _⟩ => ⟨S10000x1, .f32⟩
  | .hbm, ⟨38, _⟩ => ⟨S10000x1, .f32⟩
  | .hbm, ⟨39, _⟩ => ⟨S10000x128, .f32⟩
  | .hbm, ⟨40, _⟩ => ⟨S10000x128, .f32⟩
  | .hbm, ⟨41, _⟩ => ⟨S100000x128, .f32⟩
  | .hbm, ⟨42, _⟩ => ⟨S10000x128, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000x128, .f32⟩
  | .hbm, ⟨52, _⟩ => ⟨S_, .i32⟩
  | .hbm, ⟨53, _⟩ => ⟨S100000, .i32⟩
  | .hbm, ⟨54, _⟩ => ⟨S100000, .i1⟩
  | .hbm, ⟨55, _⟩ => ⟨S_, .i32⟩
  | .hbm, ⟨56, _⟩ => ⟨S100000, .i32⟩
  | .hbm, ⟨57, _⟩ => ⟨S100000, .i32⟩
  | .hbm, ⟨58, _⟩ => ⟨S100000, .i32⟩
  | .hbm, ⟨59, _⟩ => ⟨S100000x1, .i32⟩
  | .hbm, ⟨60, _⟩ => ⟨S100000x128, .f32⟩
  | .hbm, ⟨61, _⟩ => ⟨S1000000x128, .f32⟩
  | .hbm, ⟨62, _⟩ => ⟨S100000x128, .f32⟩
  | .hbm, ⟨63, _⟩ => ⟨S10000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S128x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg1_0 : Ref sig .tc := ⟨.vmem, 14, rfl⟩
abbrev cc3_stg2_0 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc4_stg2_0 : Ref sig .tc := ⟨.vmem, 20, rfl⟩
abbrev cc4_stg2_1 : Ref sig .tc := ⟨.vmem, 21, rfl⟩
abbrev cc5_stg0_0 : Ref sig .tc := ⟨.vmem, 22, rfl⟩
abbrev cc5_stg0_1 : Ref sig .tc := ⟨.vmem, 23, rfl⟩
abbrev cc5_stg1_0 : Ref sig .tc := ⟨.vmem, 24, rfl⟩
abbrev cc5_stg1_1 : Ref sig .tc := ⟨.vmem, 25, rfl⟩
abbrev cc5_stg2_0 : Ref sig .tc := ⟨.vmem, 26, rfl⟩
abbrev cc5_stg2_1 : Ref sig .tc := ⟨.vmem, 27, rfl⟩
abbrev cc5_stg3_0 : Ref sig .tc := ⟨.vmem, 28, rfl⟩
abbrev cc5_stg3_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc3_sem0_0 : DmaSem sig := 13
abbrev cc3_sem1_0 : DmaSem sig := 14
abbrev cc3_sem2_0 : DmaSem sig := 15
abbrev cc4_sem0_0 : DmaSem sig := 16
abbrev cc4_sem0_1 : DmaSem sig := 17
abbrev cc4_sem1_0 : DmaSem sig := 18
abbrev cc4_sem1_1 : DmaSem sig := 19
abbrev cc4_sem2_0 : DmaSem sig := 20
abbrev cc4_sem2_1 : DmaSem sig := 21
abbrev cc5_sem0_0 : DmaSem sig := 22
abbrev cc5_sem0_1 : DmaSem sig := 23
abbrev cc5_sem1_0 : DmaSem sig := 24
abbrev cc5_sem1_1 : DmaSem sig := 25
abbrev cc5_sem2_0 : DmaSem sig := 26
abbrev cc5_sem2_1 : DmaSem sig := 27
abbrev cc5_sem3_0 : DmaSem sig := 28
abbrev cc5_sem3_1 : DmaSem sig := 29
abbrev cc6_sem0_0 : DmaSem sig := 30
abbrev cc6_sem1_0 : DmaSem sig := 31
abbrev cc6_sem2_0 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S10000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S10000x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S10000x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S10000x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S10000x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S10000x128 : S_.BroadcastsInDim S10000x128 (![] : Fin 0 → Fin S10000x128.rank)
  bcast_S100000_S100000x1_0 : S100000.BroadcastsInDim S100000x1 (![0] : Fin 1 → Fin S100000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  shapeCasts_S10000x128_S10000x128 : S10000x128.ShapeCasts S10000x128
  bcast_S_S1000000 : S_.BroadcastsInDim S1000000 (![] : Fin 0 → Fin S1000000.rank)
  bcast_S_S100000 : S_.BroadcastsInDim S100000 (![] : Fin 0 → Fin S100000.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  dot_S10000x128_S128x128_S10000x128_1_1_0_0_n_n_wf : DotDims.WF S10000x128 S128x128 S10000x128 [1] [1] [0] [0] [] []
  scatter_S100000x128_S1000000x1_S1000000x128_1_0_0_1_wf : ScatterDims.WF S100000x128 S1000000x1 S1000000x128 [1] [0] [0] 1
  scatter_S100000x1_S1000000x1_S1000000x1_1_0_0_1_wf : ScatterDims.WF S100000x1 S1000000x1 S1000000x1 [1] [0] [0] 1
  scatter_S10000x128_S100000x1_S100000x128_1_0_0_1_wf : ScatterDims.WF S10000x128 S100000x1 S100000x128 [1] [0] [0] 1
  scatter_S10000x1_S100000x1_S100000x1_1_0_0_1_wf : ScatterDims.WF S10000x1 S100000x1 S100000x1 [1] [0] [0] 1
  gather_S100000x128_S1000000x1_S1000000x128_1_0_n_n_0_1_1128_wf : GatherDims.WF S100000x128 S1000000x1 S1000000x128 [1] [0] [] [0] [] 1 ![1, 128]
  gather_S10000x128_S100000x1_S100000x128_1_0_n_n_0_1_1128_wf : GatherDims.WF S10000x128 S100000x1 S100000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .f32 = 32 ∨ (Rect.block (s := S10000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .f32 = 32 ∨ (Rect.block (s := S10000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S10000x128.size a
  hwx3_0 : ∀ i : grid3.Coords, EltTy.bits .f32 = 32 ∨ (Rect.block (s := S10000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S10000x128.size a
  hwx3_2 : ∀ i : grid3.Coords, EltTy.bits .f32 = 32 ∨ (Rect.block (s := S10000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S1000000x128.size a
  hwx4_0 : ∀ i : grid4.Coords, EltTy.bits .f32 = 32 ∨ (Rect.block (s := S1000000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S1000000x128.size a
  hwx4_1 : ∀ i : grid4.Coords, EltTy.bits .f32 = 32 ∨ (Rect.block (s := S1000000x128) S10000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S1000000x128.size a
  hwx4_2 : ∀ i : grid4.Coords, EltTy.bits .f32 = 32 ∨ (Rect.block (s := S1000000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S10000x128.size a
  hwx6_0 : ∀ i : grid6.Coords, EltTy.bits .f32 = 32 ∨ (Rect.block (s := S10000x128) S10000x128.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S10000x128.size a
  hwx6_1 : ∀ i : grid6.Coords, EltTy.bits .f32 = 32 ∨ (Rect.block (s := S10000x128) S10000x128.size (cc6_transform_1 i) (hinb6_1 i)).WholeWords (EltTy.packing .f32)
  hstage6_2 : ∀ j, (stage6_2 j).IsWhole
  nbuf6_2 : grid6.bufCount reads6_2 false = 1
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S10000x128.size a
  hwx6_2 : ∀ i : grid6.Coords, EltTy.bits .f32 = 32 ∨ (Rect.block (s := S10000x128) S10000x128.size (cc6_transform_2 i) (hinb6_2 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def scatter_S10000x128_S100000x1_S100000x128_1_0_0_1 : ScatterDims S10000x128 S100000x1 S100000x128 where
  updateWindowDims := [1]
  insertedWindowDims := [0]
  scatterDimsToOperandDims := [0]
  indexVectorDim := 1
  wf := scatter_S10000x128_S100000x1_S100000x128_1_0_0_1_wf
def scatter_S10000x1_S100000x1_S100000x1_1_0_0_1 : ScatterDims S10000x1 S100000x1 S100000x1 where
  updateWindowDims := [1]
  insertedWindowDims := [0]
  scatterDimsToOperandDims := [0]
  indexVectorDim := 1
  wf := scatter_S10000x1_S100000x1_S100000x1_1_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S10000x128_S100000x1_S100000x128_1_0_n_n_0_1_1128 : GatherDims S10000x128 S100000x1 S100000x128 where
  offsetDims := [1]
  collapsedSliceDims := [0]
  operandBatchingDims := []
  startIndicesBatchingDims := []
  startIndexMap := [0]
  indexVectorDim := 1
  sliceSizes := ![1, 128]
  wf := gather_S10000x128_S100000x1_S100000x128_1_0_n_n_0_1_1128_wf

abbrev win0_0 : Pipeline.Window sig grid0 :=
  Pipeline.Window.ofSpec (Memref.whole main_arg1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S10000x128.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S10000x128.size cc1_transform_2 reads1_2 true false 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v12) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v23) S10000x128.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v25) S10000x128.size cc3_transform_2 reads3_2 true false 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg0) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v40) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg1) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v24) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v39) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v41) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_arg2) S10000x128.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v25) S10000x128.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v42) S10000x128.size cc6_transform_2 reads6_2 true false 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S1000000x128 : Shape := ⟨2, ![1000000, 128]⟩
abbrev S100000x128 : Shape := ⟨2, ![100000, 128]⟩
abbrev S10000x128 : Shape := ⟨2, ![10000, 128]⟩
abbrev S1000000 : Shape := ⟨1, ![1000000]⟩
abbrev S100000 : Shape := ⟨1, ![100000]⟩
abbrev S128x128 : Shape := ⟨2, ![128, 128]⟩
abbrev S_ : Shape := ⟨0, ![]⟩
abbrev S1000000x1 : Shape := ⟨2, ![1000000, 1]⟩
abbrev S100000x1 : Shape := ⟨2, ![100000, 1]⟩
abbrev S10000x1 : Shape := ⟨2, ![10000, 1]⟩

abbrev nBuf : Space → Nat
  | .hbm => 69
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S100000x128, .f32⟩
  | .hbm, ⟨2, _⟩ => ⟨S10000x128, .f32⟩
  | .hbm, ⟨3, _⟩ => ⟨S1000000, .i32⟩
  | .hbm, ⟨4, _⟩ => ⟨S100000, .i32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S100000x128, .f32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x128, .f32⟩
  | .hbm, ⟨20, _⟩ => ⟨S1000000x128, .f32⟩
  | .hbm, ⟨21, _⟩ => ⟨S_, .f32⟩
  | .hbm, ⟨22, _⟩ => ⟨S100000x128, .f32⟩
  | .hbm, ⟨23, _⟩ => ⟨S1000000x1, .i32⟩
  | .hbm, ⟨24, _⟩ => ⟨S100000x128, .f32⟩
  | .hbm, ⟨25, _⟩ => ⟨S_, .f32⟩
  | .hbm, ⟨26, _⟩ => ⟨S1000000x1, .f32⟩
  | .hbm, ⟨27, _⟩ => ⟨S_, .f32⟩
  | .hbm, ⟨28, _⟩ => ⟨S100000x1, .f32⟩
  | .hbm, ⟨29, _⟩ => ⟨S1000000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S10000x128, .f32⟩
  | .hbm, ⟨41, _⟩ => ⟨S_, .i32⟩
  | .hbm, ⟨42, _⟩ => ⟨S100000, .i32⟩
  | .hbm, ⟨43, _⟩ => ⟨S100000, .i1⟩
  | .hbm, ⟨44, _⟩ => ⟨S_, .i32⟩
  | .hbm, ⟨45, _⟩ => ⟨S100000, .i32⟩
  | .hbm, ⟨46, _⟩ => ⟨S100000, .i32⟩
  | .hbm, ⟨47, _⟩ => ⟨S100000, .i32⟩
  | .hbm, ⟨48, _⟩ => ⟨S100000x1, .i32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S10000x128, .f32⟩
  | .hbm, ⟨53, _⟩ => ⟨S100000x1, .i32⟩
  | .hbm, ⟨54, _⟩ => ⟨S10000x128, .f32⟩
  | .hbm, ⟨55, _⟩ => ⟨S_, .f32⟩
  | .hbm, ⟨56, _⟩ => ⟨S100000x1, .f32⟩
  | .hbm, ⟨57, _⟩ => ⟨S_, .f32⟩
  | .hbm, ⟨58, _⟩ => ⟨S10000x1, .f32⟩
  | .hbm, ⟨59, _⟩ => ⟨S100000x1, .i32⟩
  | .hbm, ⟨60, _⟩ => ⟨S10000x1, .f32⟩
  | .hbm, ⟨61, _⟩ => ⟨S_, .f32⟩
  | .hbm, ⟨62, _⟩ => ⟨S10000x1, .f32⟩
  | .hbm, ⟨63, _⟩ => ⟨S10000x1, .f32⟩
  | .hbm, ⟨64, _⟩ => ⟨S10000x128, .f32⟩
  | .hbm, ⟨65, _⟩ => ⟨S10000x128, .f32⟩
  | .hbm, ⟨66, _⟩ => ⟨S128x128, .f32⟩
  | .hbm, ⟨67, _⟩ => ⟨S10000x128, .f32⟩
  | .hbm, ⟨68, _⟩ => ⟨S10000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  transposes_S128x128_S128x128_1_0 : S128x128.Transposes [1, 0] S128x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S1000000x1 : S_.BroadcastsInDim S1000000x1 (![] : Fin 0 → Fin S1000000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S10000x128 : S_.BroadcastsInDim S10000x128 (![] : Fin 0 → Fin S10000x128.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  dot_S100000x128_S128x128_S100000x128_1_0_0_1_n_n_wf : DotDims.WF S100000x128 S128x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000x1_S1000000x1_S1000000x1_1_0_0_1_wf : ScatterDims.WF S100000x1 S1000000x1 S1000000x1 [1] [0] [0] 1
  dot_S10000x128_S128x128_S10000x128_1_0_0_1_n_n_wf : DotDims.WF S10000x128 S128x128 S10000x128 [1] [0] [0] [1] [] []
  gather_S10000x128_S100000x1_S100000x128_1_0_n_n_0_1_1128_wf : GatherDims.WF S10000x128 S100000x1 S100000x128 [1] [0] [] [0] [] 1 ![1, 128]
  scatter_S10000x128_S100000x1_S100000x128_1_0_0_1_wf : ScatterDims.WF S10000x128 S100000x1 S100000x128 [1] [0] [0] 1
  scatter_S10000x1_S100000x1_S100000x1_1_0_0_1_wf : ScatterDims.WF S10000x1 S100000x1 S100000x1 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S100000x1_S100000x128_1_0_n_n_0_1_1128 : GatherDims S10000x128 S100000x1 S100000x128 where
  offsetDims := [1]
  collapsedSliceDims := [0]
  operandBatchingDims := []
  startIndicesBatchingDims := []
  startIndexMap := [0]
  indexVectorDim := 1
  sliceSizes := ![1, 128]
  wf := gather_S10000x128_S100000x1_S100000x128_1_0_n_n_0_1_1128_wf
def scatter_S10000x128_S100000x1_S100000x128_1_0_0_1 : ScatterDims S10000x128 S100000x1 S100000x128 where
  updateWindowDims := [1]
  insertedWindowDims := [0]
  scatterDimsToOperandDims := [0]
  indexVectorDim := 1
  wf := scatter_S10000x128_S100000x1_S100000x128_1_0_0_1_wf
def scatter_S10000x1_S100000x1_S100000x1_1_0_0_1 : ScatterDims S10000x1 S100000x1 S100000x1 where
  updateWindowDims := [1]
  insertedWindowDims := [0]
  scatterDimsToOperandDims := [0]
  indexVectorDim := 1
  wf := scatter_S10000x1_S100000x1_S100000x1_1_0_0_1_wf

class Facts : Prop extends Facts₀ where

variable [Facts]
-- ==== Proof.RunNamed.lean ====
/-
  The idealized kernel's run with its three result arrays named. The program is seven pipelined regions among two
  stretches of host operations; its buffers' contents at each boundary are a fold from the launch memory (the
  generated `Gen.W0 … Gen.W9`). Every weakly fair execution terminates, nothing faulting, with every result array at
  the last boundary's contents `Gen.W9` and every argument array as launched. What those contents are, as
  functions of the arguments, is read off the fold in the modules that import this one.
-/
import proofs.«129119_j15255723835508_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the seven regions and the two host stretches: at the end every unscoped buffer of a core holds the
    last boundary's contents, so each result array is `W9` at its buffer and each argument is as launched. -/
theorem run_named : θ_run defs (onTc (τ := τ) (main (F := F))) ⟨m, fun _ => 0, ρ⟩ (fun r => ∀ c : Dev nD,
      r.2.mem ((c.tc : Thread nD τ).loc main_v40) = W9 m ρ c (Proc.devRef .tc main_v40)
      ∧ r.2.mem ((c.tc : Thread nD τ).loc main_v41) = W9 m ρ c (Proc.devRef .tc main_v41)
      ∧ r.2.mem ((c.tc : Thread nD τ).loc main_v42) = W9 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v40 (by decide)),
       h c _ (mem_uc main_v41 (by decide)),
       h c _ (mem_uc main_v42 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Hand

end
-- ==== Proof.LibMatmulIdx.lean ====
/-
  A matrix product accumulated into zero, read entry by entry over the extended reals, for any extents: rows by columns
  (`[m, k] · [k, n]`, the entry at `(a, b)` is `∑ c, A (a, c) · B (c, b)`), and rows by rows (`[m, k]` against `[n, k]`, both
  contracted on their second coordinate: `∑ c, A (a, c) · B (b, c)`). The dimension numbers are written out literally, so
  a program's own record of them unifies with the statement by unfolding.
-/
import Idealize.ShloMosaic.Lib.ValueIdx
import Idealize.ShloMosaic.PureOps.Ideal.Laws

open scoped BigOperators

noncomputable section

namespace Cert.LibMatmulIdx

open Idealize.ShloMosaic Idealize.ShloMosaic.ValueIdx

/-! ## A matrix product into the zero splat, read at a row and a column -/

/-- Rows by columns: the entry at `(a, b)` of an `m × k` by `k × n` product accumulated into zero is the sum
    over the contracted coordinate of the products of the two entries. -/
theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- Rows by rows: both operands contracted on their second coordinate. The entry at `(a, b)` of an `m × k` by
    `n × k` product accumulated into zero is the sum over the contracted coordinate of row `a` of the left times
    row `b` of the right. -/
theorem matmul_rr_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.LibMatmulIdx

end
-- ==== Proof.LibDotGeneralIdx.lean ====
/-
  The host's matrix product read entry by entry over the extended reals, for any extents: rows by columns
  (`[m, k] · [k, n]`, the entry at `(a, b)` is `∑ c, A (a, c) · B (c, b)`). The dimension numbers are written out
  literally, so a program's own record of them unifies with the statement by unfolding.
-/
import Idealize.ShloMosaic.Lib.ValueIdx
import Idealize.ShloMosaic.PureOps.Ideal.Laws

open scoped BigOperators

noncomputable section

namespace Cert.LibDotGeneralIdx

open Idealize.ShloMosaic Idealize.ShloMosaic.ValueIdx

/-- Rows by columns on the host: the entry at `(a, b)` of an `m × k` by `k × n` product is the sum over the
    contracted coordinate of the products of the two entries. -/
theorem dotGeneral_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (⟨[1], [0], [0], [1], [], [], w⟩ : DotDims ⟨2, ![m, k]⟩ ⟨2, ![k, n]⟩ ⟨2, ![m, n]⟩) prec A B
        (ix2 a b)
      = ∑ c : Fin k, A (ix2 a c) * B (ix2 c b) := by
  simp only [Host.dotGeneral]
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

end Cert.LibDotGeneralIdx

end
-- ==== Proof.Spec.lean ====
/-
  The one piece of arithmetic this kernel has: a linear layer `x ↦ x · Wᵀ` on rows of 128 features. Over the extended
  reals the entry at row `p`, column `q` is `∑ c, X (p, c) · W (q, c)` — row `p` of the input against row `q` of the
  weights. Both programs compute exactly this sum: the kernel by a matrix unit product contracting the second
  coordinate of both operands (after a change of float format, which is the identity here), the reference by
  transposing the weights and contracting rows against columns. The sums have the same terms in the same order, so
  no law of the extended reals beyond reading the two products entry by entry is needed.
-/
import Idealize.ShloMosaic.Lib.ValueIdx
import Idealize.ShloMosaic.Lib.ValueLayout
import Idealize.ShloMosaic.PureOps.Ideal.Laws
import proofs.«129119_j15255723835508_1_alg».proof.Proof.LibMatmulIdx
import proofs.«129119_j15255723835508_1_alg».proof.Proof.LibDotGeneralIdx

open scoped BigOperators

noncomputable section

namespace Cert.Spec

open Idealize.ShloMosaic Idealize.ShloMosaic.ValueIdx

/-- The zero offsets of a rectangle that starts at the origin, in the two spellings that occur. -/
theorem zero_offsets : (![0, 0] : Fin 2 → Nat) = fun _ => 0 := funext fun a => by fin_cases a <;> rfl

/-- Rows against rows: entry `(p, q)` is the sum over the 128 features of `X (p, c) · W (q, c)`. -/
def rowsByRows {n : Nat} (X : FVec Ideal ⟨2, ![n, 128]⟩ .f32) (W : FVec Ideal ⟨2, ![128, 128]⟩ .f32) :
    FVec Ideal ⟨2, ![n, 128]⟩ .f32 :=
  fun i => ∑ c : Fin 128, X (ix2 (i 0) c) * W (ix2 (i 1) c)

theorem rowsByRows_apply {n : Nat} (X : FVec Ideal ⟨2, ![n, 128]⟩ .f32) (W : FVec Ideal ⟨2, ![128, 128]⟩ .f32)
    (p : Fin n) (q : Fin 128) : rowsByRows X W (ix2 p q) = ∑ c : Fin 128, X (ix2 p c) * W (ix2 q c) := rfl

/-- The matrix unit's product of the two operands taken to the narrow float format, accumulated into zero and
    contracting the second coordinate of both, is `rowsByRows`: the change of format is the identity. -/
theorem matmul_rows_eq {n : Nat}
    (w : DotDims.WF ⟨2, ![n, 128]⟩ ⟨2, ![128, 128]⟩ ⟨2, ![n, 128]⟩ [1] [1] [0] [0] [] [])
    (prec : Option ContractPrecision) (h1 : FTy.bf16.bits < FTy.f32.bits) (h2 : FTy.bf16.bits < FTy.f32.bits)
    (X : FVec Ideal ⟨2, ![n, 128]⟩ .f32) (W : FVec Ideal ⟨2, ![128, 128]⟩ .f32) :
    matmul (F := Ideal) (⟨[1], [1], [0], [0], [], [], w⟩ : DotDims ⟨2, ![n, 128]⟩ ⟨2, ![128, 128]⟩ ⟨2, ![n, 128]⟩) prec
        (truncf .bf16 X h1) (truncf .bf16 W h2) (constant (F := Ideal) ⟨2, ![n, 128]⟩ .f32 0x00000000#32)
      = rowsByRows X W := by
  funext j
  obtain ⟨p, q, rfl⟩ : ∃ (p : Fin n) (q : Fin 128), j = ix2 p q := ⟨j 0, j 1, eq_ix2 j⟩
  exact Cert.LibMatmulIdx.matmul_rr_apply w prec X W p q

/-- The host's product of the input with the transposed weights, rows against columns, is `rowsByRows`: the
    transposed weights at `(c, q)` are the weights at `(q, c)`. -/
theorem dot_transpose_eq {n : Nat}
    (w : DotDims.WF ⟨2, ![n, 128]⟩ ⟨2, ![128, 128]⟩ ⟨2, ![n, 128]⟩ [1] [0] [0] [1] [] [])
    (prec : Option ContractPrecision)
    (h : (⟨2, ![128, 128]⟩ : Shape).Transposes [1, 0] ⟨2, ![128, 128]⟩)
    (X : FVec Ideal ⟨2, ![n, 128]⟩ .f32) (W : FVec Ideal ⟨2, ![128, 128]⟩ .f32) :
    Host.dotGeneral (F := Ideal) (⟨[1], [0], [0], [1], [], [], w⟩ : DotDims ⟨2, ![n, 128]⟩ ⟨2, ![128, 128]⟩ ⟨2, ![n, 128]⟩) prec
        X (transpose ⟨2, ![128, 128]⟩ [1, 0] W h)
      = rowsByRows X W := by
  funext j
  obtain ⟨p, q, rfl⟩ : ∃ (p : Fin n) (q : Fin 128), j = ix2 p q := ⟨j 0, j 1, eq_ix2 j⟩
  rw [Cert.LibDotGeneralIdx.dotGeneral_rc_apply w prec X _ p q, rowsByRows_apply]
  refine Finset.sum_congr rfl fun c _ => ?_
  rw [transpose_ix2_apply W h c q]

end Cert.Spec

end
-- ==== Proof.HostTerms.lean ====
/-
  The host operations between the regions, as named functions of whole arrays over the extended reals. Both programs
  apply these same operations to the same arguments, so nothing is ever proved about what a scatter-add or a gather
  computes: each is carried as one opaque function.
  * `clusterMean1 x idx`: the rows of `x` (one million rows) summed into the 100000 clusters `idx` names, each sum
    divided by the larger of its cluster's size and 1; `clusterMean2` the same from 100000 rows to 10000 clusters.
  * `pick1 table idx`: row `idx r` of the table for each of the one million `r`, a negative `idx r` counted from the
    end; `pick2` the same for the 100000 rows of the middle scale.
-/
import proofs.«129119_j15255723835508_1_alg».proof.Proof.Gen.KernelIdeal
import Idealize.ShloMosaic.PureOps.Ideal

set_option maxRecDepth 16384

open scoped BigOperators

noncomputable section

namespace Cert.KernelIdeal.Hand

open Cert.KernelIdeal Cert.KernelIdeal.Gen
open Idealize.ShloMosaic Idealize.ShloMosaic.TcCoe Idealize.SL.Sem

/-- The mean of the fine rows over each middle cluster (an empty cluster gives 0 / 1). -/
def clusterMean1 (x : (⟨S1000000x128, .f32⟩ : BufTy).Contents (Elt Ideal)) (idx : (⟨S1000000, .i32⟩ : BufTy).Contents (Elt Ideal)) :
    (⟨S100000x128, .f32⟩ : BufTy).Contents (Elt Ideal) :=
  Host.divf (F := Ideal) (Host.scatterAdd (F := Ideal) scatter_S100000x128_S1000000x1_S1000000x128_1_0_0_1 (broadcastInDim S100000x128 ![] bcast_S_S100000x128 (constant (F := Ideal) S_ .f32 0x00000000#32)) (broadcastInDim S1000000x1 ![0] bcast_S1000000_S1000000x1_0 idx) x) (broadcastInDim S100000x128 ![0, 1] bcast_S100000x1_S100000x128_0_1 (maximumf (F := Ideal) (Host.scatterAdd (F := Ideal) scatter_S100000x1_S1000000x1_S1000000x1_1_0_0_1 (broadcastInDim S100000x1 ![] bcast_S_S100000x1 (constant (F := Ideal) S_ .f32 0x00000000#32)) (broadcastInDim S1000000x1 ![0] bcast_S1000000_S1000000x1_0 idx) (broadcastInDim S1000000x1 ![] bcast_S_S1000000x1 (constant (F := Ideal) S_ .f32 0x3F800000#32))) (broadcastInDim S100000x1 ![] bcast_S_S100000x1 (constant (F := Ideal) S_ .f32 0x3F800000#32))))

/-- The mean of the middle rows over each coarse cluster. -/
def clusterMean2 (x : (⟨S100000x128, .f32⟩ : BufTy).Contents (Elt Ideal)) (idx : (⟨S100000, .i32⟩ : BufTy).Contents (Elt Ideal)) :
    (⟨S10000x128, .f32⟩ : BufTy).Contents (Elt Ideal) :=
  Host.divf (F := Ideal) (Host.scatterAdd (F := Ideal) scatter_S10000x128_S100000x1_S100000x128_1_0_0_1 (broadcastInDim S10000x128 ![] bcast_S_S10000x128 (constant (F := Ideal) S_ .f32 0x00000000#32)) (broadcastInDim S100000x1 ![0] bcast_S100000_S100000x1_0 idx) x) (broadcastInDim S10000x128 ![0, 1] bcast_S10000x1_S10000x128_0_1 (maximumf (F := Ideal) (Host.scatterAdd (F := Ideal) scatter_S10000x1_S100000x1_S100000x1_1_0_0_1 (broadcastInDim S10000x1 ![] bcast_S_S10000x1 (constant (F := Ideal) S_ .f32 0x00000000#32)) (broadcastInDim S100000x1 ![0] bcast_S100000_S100000x1_0 idx) (broadcastInDim S100000x1 ![] bcast_S_S100000x1 (constant (F := Ideal) S_ .f32 0x3F800000#32))) (broadcastInDim S10000x1 ![] bcast_S_S10000x1 (constant (F := Ideal) S_ .f32 0x3F800000#32))))

/-- For each fine row, the row of the middle table its cluster index names. -/
def pick1 (table : (⟨S100000x128, .f32⟩ : BufTy).Contents (Elt Ideal)) (idx : (⟨S1000000, .i32⟩ : BufTy).Contents (Elt Ideal)) :
    (⟨S1000000x128, .f32⟩ : BufTy).Contents (Elt Ideal) :=
  Host.gather gather_S100000x128_S1000000x1_S1000000x128_1_0_n_n_0_1_1128 table (broadcastInDim S1000000x1 ![0] bcast_S1000000_S1000000x1_0 (select (cmpi .slt idx (broadcastInDim S1000000 ![] bcast_S_S1000000 (constantI S_ 32 0#32))) (addi idx (broadcastInDim S1000000 ![] bcast_S_S1000000 (constantI S_ 32 100000#32))) idx))

/-- For each middle row, the row of the coarse table its cluster index names. -/
def pick2 (table : (⟨S10000x128, .f32⟩ : BufTy).Contents (Elt Ideal)) (idx : (⟨S100000, .i32⟩ : BufTy).Contents (Elt Ideal)) :
    (⟨S100000x128, .f32⟩ : BufTy).Contents (Elt Ideal) :=
  Host.gather gather_S10000x128_S100000x1_S100000x128_1_0_n_n_0_1_1128 table (broadcastInDim S100000x1 ![0] bcast_S100000_S100000x1_0 (select (cmpi .slt idx (broadcastInDim S100000 ![] bcast_S_S100000 (constantI S_ 32 0#32))) (addi idx (broadcastInDim S100000 ![] bcast_S_S100000 (constantI S_ 32 10000#32))) idx))

end Cert.KernelIdeal.Hand

end
-- ==== Proof.Linear0.lean ====
/-
  What each linear-layer region leaves in its output array, as one function of the arrays the region finds on entry
  (`V`, a parameter: the run instantiates it per region). A grid point stages 10000 rows of the input and the whole
  128 × 128 weight matrix, multiplies rows against rows, and writes the 10000 × 128 block of products back to the same
  rows of the output. The blocks tile the output, so after the last point the output is `rowsByRows` of the input array
  and the weight array.
-/
import proofs.«129119_j15255723835508_1_alg».proof.Proof.Gen.KernelIdeal.Frame
import Idealize.ShloMosaic.Lib.Pipeline.Value
import proofs.«129119_j15255723835508_1_alg».proof.Proof.Spec

set_option maxRecDepth 16384

open scoped BigOperators

noncomputable section

namespace Cert.KernelIdeal.Hand

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Region 0: a linear layer over the 100000 rows of `main_arg1`, 10 blocks of 10000 rows -/

/-- The body's stored value is the rows of its input block against the rows of the weights. -/
theorem pay0_eq (x : Vec Ideal S10000x128 .f32) (w : Vec Ideal S128x128 .f32) :
    k0_pay1 (F := Ideal) x w = rowsByRows x w := by
  unfold k0_pay1
  exact matmul_rows_eq _ _ _ _ x w

/-- The printed index maps: the input's and the output's block at point `t` are rows `10000 t …`, all 128 columns; the
    weights are one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `rowsByRows` of the two arrays as the region finds them: row `r` of the
    block is row `10000 t + r` of the input, and a row of the product depends on that row of the input only. -/
theorem flushed0_eq (c : Dev nD) (t : Fin cfg0.N) :
    (dat0 V c).flushed 2 t = ((cfg0.win 2).blk t).view.read (Elt Ideal)
      (rowsByRows (n := 100000) (V c main_arg1) (V c main_arg7)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  rw [pay0_eq]
  obtain ⟨e0, e1, e2, e3, e4, e5⟩ := idx0 t
  funext j
  show rowsByRows (iblk0 V c 0 t) (iblk0 V c 1 t) j
    = rowsByRows (n := 100000) (V c main_arg1) (V c main_arg7) (((cfg0.win 2).blk t).view.emb j)
  unfold rowsByRows
  refine Finset.sum_congr rfl fun cc _ => ?_
  have hx : iblk0 V c 0 t (ix2 (j 0) cc) = V c main_arg1 (ix2 ((((cfg0.win 2).blk t).view.emb j) 0) cc) := by
    show V c main_arg1 (((cfg0.win 0).blk t).view.emb (ix2 (j 0) cc)) = _
    refine congrArg (V c main_arg1) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * cc.val = cc.val; omega
  have hw : iblk0 V c 1 t (ix2 (j 1) cc) = V c main_arg7 (ix2 ((((cfg0.win 2).blk t).view.emb j) 1) cc) := by
    show V c main_arg7 (((cfg0.win 1).blk t).view.emb (ix2 (j 1) cc)) = _
    refine congrArg (V c main_arg7) (funext fun a => Fin.ext ?_)
    match a with
    | ⟨0, _⟩ => show win0_1.index t (0 : Fin 2) * 128 + 1 * (j 1).val = win0_2.index t (1 : Fin 2) * 128 + 1 * (j 1).val; omega
    | ⟨1, _⟩ => show win0_1.index t (1 : Fin 2) * 128 + 1 * cc.val = cc.val; omega
  rw [hx, hw]

/-- An index of the output array is in point `t`'s block iff each coordinate is in the block's range. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- Every row of the output lies in the block of the point `row / 10000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_2 _, ?_⟩
  rw [mem_blk0]
  obtain ⟨e0, e1, e2, e3, e4, e5⟩ := idx0 ⟨(i 0).val / 10000, by rw [hN]; omega⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ (i 0).val ∧ (i 0).val < (i 0).val / 10000 * 10000 + 10000; omega
  | ⟨1, _⟩ => show win0_2.index _ (1 : Fin 2) * 128 ≤ (i 1).val ∧ (i 1).val < win0_2.index _ (1 : Fin 2) * 128 + 128; rw [e5]; omega

/-- The output array after the region: the linear layer of the two arrays as the region finds them. -/
theorem final0 (c : Dev nD) :
    (dat0 V c).arrAt 2 cfg0.N = rowsByRows (n := 100000) (V c main_arg1) (V c main_arg7) :=
  (dat0 V c).arrAt_eq_of_cover 2 _ (fun t _ => flushed0_eq V c t) (cover0)

end Cert.KernelIdeal.Hand

end
-- ==== Proof.Linear1.lean ====
/-
  What each linear-layer region leaves in its output array, as one function of the arrays the region finds on entry
  (`V`, a parameter: the run instantiates it per region). A grid point stages 10000 rows of the input and the whole
  128 × 128 weight matrix, multiplies rows against rows, and writes the 10000 × 128 block of products back to the same
  rows of the output. The blocks tile the output, so after the last point the output is `rowsByRows` of the input array
  and the weight array.
-/
import proofs.«129119_j15255723835508_1_alg».proof.Proof.Gen.KernelIdeal.Frame
import Idealize.ShloMosaic.Lib.Pipeline.Value
import proofs.«129119_j15255723835508_1_alg».proof.Proof.Spec

set_option maxRecDepth 16384

open scoped BigOperators

noncomputable section

namespace Cert.KernelIdeal.Hand

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Region 1: a linear layer over the 10000 rows of `main_arg2`, one block -/

/-- The body's stored value is the rows of its input block against the rows of the weights. -/
theorem pay1_eq (x : Vec Ideal S10000x128 .f32) (w : Vec Ideal S128x128 .f32) :
    k1_pay1 (F := Ideal) x w = rowsByRows x w := by
  unfold k1_pay1
  exact matmul_rows_eq _ _ _ _ x w

/-- The printed index maps: the input's and the output's block at point `t` are rows `10000 t …`, all 128 columns; the
    weights are one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `rowsByRows` of the two arrays as the region finds them: row `r` of the
    block is row `10000 t + r` of the input, and a row of the product depends on that row of the input only. -/
theorem flushed1_eq (c : Dev nD) (t : Fin cfg1.N) :
    (dat1 V c).flushed 2 t = ((cfg1.win 2).blk t).view.read (Elt Ideal)
      (rowsByRows (n := 10000) (V c main_arg2) (V c main_arg8)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S128x128) zero_offsets]
  rw [pay1_eq]
  obtain ⟨e0, e1, e2, e3, e4, e5⟩ := idx1 t
  funext j
  show rowsByRows (iblk1 V c 0 t) (iblk1 V c 1 t) j
    = rowsByRows (n := 10000) (V c main_arg2) (V c main_arg8) (((cfg1.win 2).blk t).view.emb j)
  unfold rowsByRows
  refine Finset.sum_congr rfl fun cc _ => ?_
  have hx : iblk1 V c 0 t (ix2 (j 0) cc) = V c main_arg2 (ix2 ((((cfg1.win 2).blk t).view.emb j) 0) cc) := by
    show V c main_arg2 (((cfg1.win 0).blk t).view.emb (ix2 (j 0) cc)) = _
    refine congrArg (V c main_arg2) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * cc.val = cc.val; omega
  have hw : iblk1 V c 1 t (ix2 (j 1) cc) = V c main_arg8 (ix2 ((((cfg1.win 2).blk t).view.emb j) 1) cc) := by
    show V c main_arg8 (((cfg1.win 1).blk t).view.emb (ix2 (j 1) cc)) = _
    refine congrArg (V c main_arg8) (funext fun a => Fin.ext ?_)
    match a with
    | ⟨0, _⟩ => show win1_1.index t (0 : Fin 2) * 128 + 1 * (j 1).val = win1_2.index t (1 : Fin 2) * 128 + 1 * (j 1).val; omega
    | ⟨1, _⟩ => show win1_1.index t (1 : Fin 2) * 128 + 1 * cc.val = cc.val; omega
  rw [hx, hw]

/-- An index of the output array is in point `t`'s block iff each coordinate is in the block's range. -/
theorem mem_blk1 (t : Fin cfg1.N) (i : S10000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v1).slice (win1_2.rect t)).set ↔ _
  rw [View.set_slice_whole, Rect.mem_set_unit]
  exact Iff.rfl

/-- Every row of the output lies in the block of the point `row / 10000`. -/
theorem cover1 (i : S10000x128.Idx) :
    ∃ t : Fin cfg1.N, (cfg1.win 2).flush t = true ∧ i ∈ ((cfg1.win 2).blk t).view.set := by
  have hi0 : (i 0).val < 10000 := (i 0).isLt
  have hi1 : (i 1).val < 128 := (i 1).isLt
  have hN : cfg1.N = 1 := N_1
  refine ⟨⟨(i 0).val / 10000, by rw [hN]; omega⟩, flush1_2 _, ?_⟩
  rw [mem_blk1]
  obtain ⟨e0, e1, e2, e3, e4, e5⟩ := idx1 ⟨(i 0).val / 10000, by rw [hN]; omega⟩
  intro a
  match a with
  | ⟨0, _⟩ => show win1_2.index _ (0 : Fin 2) * 10000 ≤ (i 0).val ∧ (i 0).val < win1_2.index _ (0 : Fin 2) * 10000 + 10000; rw [e4]; show (i 0).val / 10000 * 10000 ≤ (i 0).val ∧ (i 0).val < (i 0).val / 10000 * 10000 + 10000; omega
  | ⟨1, _⟩ => show win1_2.index _ (1 : Fin 2) * 128 ≤ (i 1).val ∧ (i 1).val < win1_2.index _ (1 : Fin 2) * 128 + 128; rw [e5]; omega

/-- The output array after the region: the linear layer of the two arrays as the region finds them. -/
theorem final1 (c : Dev nD) :
    (dat1 V c).arrAt 2 cfg1.N = rowsByRows (n := 10000) (V c main_arg2) (V c main_arg8) :=
  (dat1 V c).arrAt_eq_of_cover 2 _ (fun t _ => flushed1_eq V c t) (cover1)

end Cert.KernelIdeal.Hand

end
-- ==== Proof.Linear2.lean ====
/-
  What each linear-layer region leaves in its output array, as one function of the arrays the region finds on entry
  (`V`, a parameter: the run instantiates it per region). A grid point stages 10000 rows of the input and the whole
  128 × 128 weight matrix, multiplies rows against rows, and writes the 10000 × 128 block of products back to the same
  rows of the output. The blocks tile the output, so after the last point the output is `rowsByRows` of the input array
  and the weight array.
-/
import proofs.«129119_j15255723835508_1_alg».proof.Proof.Gen.KernelIdeal.Frame
import Idealize.ShloMosaic.Lib.Pipeline.Value
import proofs.«129119_j15255723835508_1_alg».proof.Proof.Spec

set_option maxRecDepth 16384

open scoped BigOperators

noncomputable section

namespace Cert.KernelIdeal.Hand

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Region 2: a linear layer over the 100000 rows of `main_v12`, 10 blocks of 10000 rows -/

/-- The body's stored value is the rows of its input block against the rows of the weights. -/
theorem pay2_eq (x : Vec Ideal S10000x128 .f32) (w : Vec Ideal S128x128 .f32) :
    k2_pay1 (F := Ideal) x w = rowsByRows x w := by
  unfold k2_pay1
  rw [shapeCast_self]
  exact matmul_rows_eq _ _ _ _ x w

/-- The printed index maps: the input's and the output's block at point `t` are rows `10000 t …`, all 128 columns; the
    weights are one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `rowsByRows` of the two arrays as the region finds them: row `r` of the
    block is row `10000 t + r` of the input, and a row of the product depends on that row of the input only. -/
theorem flushed2_eq (c : Dev nD) (t : Fin cfg2.N) :
    (dat2 V c).flushed 2 t = ((cfg2.win 2).blk t).view.read (Elt Ideal)
      (rowsByRows (n := 100000) (V c main_v12) (V c main_arg5)) := by
  show (cfg2.win 2).cut (grid2.coords t) ((dat2 V c).after 2 t) = _
  rw [after2_2]
  unfold out2_2
  rw [View.canon_unit_zero zero_offsets]
  simp only [View.ld_unit_zero (S := S10000x128) zero_offsets, View.ld_unit_zero (S := S128x128) zero_offsets]
  rw [pay2_eq]
  obtain ⟨e0, e1, e2, e3, e4, e5⟩ := idx2 t
  funext j
  show rowsByRows (iblk2 V c 0 t) (iblk2 V c 1 t) j
    = rowsByRows (n := 100000) (V c main_v12) (V c main_arg5) (((cfg2.win 2).blk t).view.emb j)
  unfold rowsByRows
  refine Finset.sum_congr rfl fun cc _ => ?_
  have hx : iblk2 V c 0 t (ix2 (j 0) cc) = V c main_v12 (ix2 ((((cfg2.win 2).blk t).view.emb j) 0) cc) := by
    show V c main_v12 (((cfg2.win 0).blk t).view.emb (ix2 (j 0) cc)) = _
    refine congrArg (V c main_v12) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * cc.val = cc.val; omega
  have hw : iblk2 V c 1 t (ix2 (j 1) cc) = V c main_arg5 (ix2 ((((cfg2.win 2).blk t).view.emb j) 1) cc) := by
    show V c main_arg5 (((cfg2.win 1).blk t).view.emb (ix2 (j 1) cc)) = _
    refine congrArg (V c main_arg5) (funext fun a => Fin.ext ?_)
    match a with
    | ⟨0, _⟩ => show win2_1.index t (0 : Fin 2) * 128 + 1 * (j 1).val = win2_2.index t (1 : Fin 2) * 128 + 1 * (j 1).val; omega
    | ⟨1, _⟩ => show win2_1.index t (1 : Fin 2) * 128 + 1 * cc.val = cc.val; omega
  rw [hx, hw]

/-- An index of the output array is in point `t`'s block iff each coordinate is in the block's range. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v24).slice (win2_2.rect t)).set ↔ _
  rw [View.set_slice_whole, Rect.mem_set_unit]
  exact Iff.rfl

/-- Every row of the output lies in the block of the point `row / 10000`. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  refine ⟨⟨(i 0).val / 10000, by rw [hN]; omega⟩, flush2_2 _, ?_⟩
  rw [mem_blk2]
  obtain ⟨e0, e1, e2, e3, e4, e5⟩ := idx2 ⟨(i 0).val / 10000, by rw [hN]; omega⟩
  intro a
  match a with
  | ⟨0, _⟩ => show win2_2.index _ (0 : Fin 2) * 10000 ≤ (i 0).val ∧ (i 0).val < win2_2.index _ (0 : Fin 2) * 10000 + 10000; rw [e4]; show (i 0).val / 10000 * 10000 ≤ (i 0).val ∧ (i 0).val < (i 0).val / 10000 * 10000 + 10000; omega
  | ⟨1, _⟩ => show win2_2.index _ (1 : Fin 2) * 128 ≤ (i 1).val ∧ (i 1).val < win2_2.index _ (1 : Fin 2) * 128 + 128; rw [e5]; omega

/-- The output array after the region: the linear layer of the two arrays as the region finds them. -/
theorem final2 (c : Dev nD) :
    (dat2 V c).arrAt 2 cfg2.N = rowsByRows (n := 100000) (V c main_v12) (V c main_arg5) :=
  (dat2 V c).arrAt_eq_of_cover 2 _ (fun t _ => flushed2_eq V c t) (cover2)

end Cert.KernelIdeal.Hand

end
-- ==== Proof.Linear3.lean ====
/-
  What each linear-layer region leaves in its output array, as one function of the arrays the region finds on entry
  (`V`, a parameter: the run instantiates it per region). A grid point stages 10000 rows of the input and the whole
  128 × 128 weight matrix, multiplies rows against rows, and writes the 10000 × 128 block of products back to the same
  rows of the output. The blocks tile the output, so after the last point the output is `rowsByRows` of the input array
  and the weight array.
-/
import proofs.«129119_j15255723835508_1_alg».proof.Proof.Gen.KernelIdeal.Frame
import Idealize.ShloMosaic.Lib.Pipeline.Value
import proofs.«129119_j15255723835508_1_alg».proof.Proof.Spec

set_option maxRecDepth 16384

open scoped BigOperators

noncomputable section

namespace Cert.KernelIdeal.Hand

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Region 3: a linear layer over the 10000 rows of `main_v23`, one block -/

/-- The body's stored value is the rows of its input block against the rows of the weights. -/
theorem pay3_eq (x : Vec Ideal S10000x128 .f32) (w : Vec Ideal S128x128 .f32) :
    k3_pay1 (F := Ideal) x w = rowsByRows x w := by
  unfold k3_pay1
  rw [shapeCast_self]
  exact matmul_rows_eq _ _ _ _ x w

/-- The printed index maps: the input's and the output's block at point `t` are rows `10000 t …`, all 128 columns; the
    weights are one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `rowsByRows` of the two arrays as the region finds them: row `r` of the
    block is row `10000 t + r` of the input, and a row of the product depends on that row of the input only. -/
theorem flushed3_eq (c : Dev nD) (t : Fin cfg3.N) :
    (dat3 V c).flushed 2 t = ((cfg3.win 2).blk t).view.read (Elt Ideal)
      (rowsByRows (n := 10000) (V c main_v23) (V c main_arg6)) := by
  show (cfg3.win 2).cut (grid3.coords t) ((dat3 V c).after 2 t) = _
  rw [after3_2]
  unfold out3_2
  rw [View.canon_unit_zero zero_offsets]
  simp only [View.ld_unit_zero (S := S10000x128) zero_offsets, View.ld_unit_zero (S := S128x128) zero_offsets]
  rw [pay3_eq]
  obtain ⟨e0, e1, e2, e3, e4, e5⟩ := idx3 t
  funext j
  show rowsByRows (iblk3 V c 0 t) (iblk3 V c 1 t) j
    = rowsByRows (n := 10000) (V c main_v23) (V c main_arg6) (((cfg3.win 2).blk t).view.emb j)
  unfold rowsByRows
  refine Finset.sum_congr rfl fun cc _ => ?_
  have hx : iblk3 V c 0 t (ix2 (j 0) cc) = V c main_v23 (ix2 ((((cfg3.win 2).blk t).view.emb j) 0) cc) := by
    show V c main_v23 (((cfg3.win 0).blk t).view.emb (ix2 (j 0) cc)) = _
    refine congrArg (V c main_v23) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * cc.val = cc.val; omega
  have hw : iblk3 V c 1 t (ix2 (j 1) cc) = V c main_arg6 (ix2 ((((cfg3.win 2).blk t).view.emb j) 1) cc) := by
    show V c main_arg6 (((cfg3.win 1).blk t).view.emb (ix2 (j 1) cc)) = _
    refine congrArg (V c main_arg6) (funext fun a => Fin.ext ?_)
    match a with
    | ⟨0, _⟩ => show win3_1.index t (0 : Fin 2) * 128 + 1 * (j 1).val = win3_2.index t (1 : Fin 2) * 128 + 1 * (j 1).val; omega
    | ⟨1, _⟩ => show win3_1.index t (1 : Fin 2) * 128 + 1 * cc.val = cc.val; omega
  rw [hx, hw]

/-- An index of the output array is in point `t`'s block iff each coordinate is in the block's range. -/
theorem mem_blk3 (t : Fin cfg3.N) (i : S10000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v25).slice (win3_2.rect t)).set ↔ _
  rw [View.set_slice_whole, Rect.mem_set_unit]
  exact Iff.rfl

/-- Every row of the output lies in the block of the point `row / 10000`. -/
theorem cover3 (i : S10000x128.Idx) :
    ∃ t : Fin cfg3.N, (cfg3.win 2).flush t = true ∧ i ∈ ((cfg3.win 2).blk t).view.set := by
  have hi0 : (i 0).val < 10000 := (i 0).isLt
  have hi1 : (i 1).val < 128 := (i 1).isLt
  have hN : cfg3.N = 1 := N_3
  refine ⟨⟨(i 0).val / 10000, by rw [hN]; omega⟩, flush3_2 _, ?_⟩
  rw [mem_blk3]
  obtain ⟨e0, e1, e2, e3, e4, e5⟩ := idx3 ⟨(i 0).val / 10000, by rw [hN]; omega⟩
  intro a
  match a with
  | ⟨0, _⟩ => show win3_2.index _ (0 : Fin 2) * 10000 ≤ (i 0).val ∧ (i 0).val < win3_2.index _ (0 : Fin 2) * 10000 + 10000; rw [e4]; show (i 0).val / 10000 * 10000 ≤ (i 0).val ∧ (i 0).val < (i 0).val / 10000 * 10000 + 10000; omega
  | ⟨1, _⟩ => show win3_2.index _ (1 : Fin 2) * 128 ≤ (i 1).val ∧ (i 1).val < win3_2.index _ (1 : Fin 2) * 128 + 128; rw [e5]; omega

/-- The output array after the region: the linear layer of the two arrays as the region finds them. -/
theorem final3 (c : Dev nD) :
    (dat3 V c).arrAt 2 cfg3.N = rowsByRows (n := 10000) (V c main_v23) (V c main_arg6) :=
  (dat3 V c).arrAt_eq_of_cover 2 _ (fun t _ => flushed3_eq V c t) (cover3)

end Cert.KernelIdeal.Hand

end
-- ==== Proof.Residual4.lean ====
/-
  What each residual-sum region leaves in its output array, as one function of the arrays the region finds on entry
  (`V`, a parameter: the run instantiates it per region). A grid point stages the same block of rows of every input,
  adds them entry by entry, and writes the block of sums back to the same rows of the output. The blocks tile the
  output, so after the last point the output is the entrywise sum of the input arrays.
-/
import proofs.«129119_j15255723835508_1_alg».proof.Proof.Gen.KernelIdeal.Frame
import Idealize.ShloMosaic.Lib.Pipeline.Value
import proofs.«129119_j15255723835508_1_alg».proof.Proof.Spec

set_option maxRecDepth 16384

open scoped BigOperators

noncomputable section

namespace Cert.KernelIdeal.Hand

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Region 4: the sum of 2 arrays of 1000000 rows, 100 blocks of 10000 rows -/

/-- The body's stored value is the entrywise sum of its input blocks. -/
theorem pay4_eq (x0 : Vec Ideal S10000x128 .f32) (x1 : Vec Ideal S10000x128 .f32) : k4_pay1 (F := Ideal) x0 x1 = addf x0 x1 := by
  unfold k4_pay1
  simp only [shapeCast_self]

/-- The printed index maps: every window's block at point `t` is rows `10000 t …`, all 128 columns. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the entrywise sum of the arrays as the region finds them: all the
    windows move together. -/
theorem flushed4_eq (c : Dev nD) (t : Fin cfg4.N) :
    (dat4 V c).flushed 2 t = ((cfg4.win 2).blk t).view.read (Elt Ideal)
      (addf (V c main_arg0) (V c main_v32) : FVec Ideal S1000000x128 .f32) := by
  show (cfg4.win 2).cut (grid4.coords t) ((dat4 V c).after 2 t) = _
  rw [after4_2]
  unfold out4_2
  rw [View.canon_unit_zero zero_offsets]
  simp only [View.ld_unit_zero (S := S10000x128) zero_offsets]
  rw [pay4_eq]
  obtain ⟨e0, e1, e2, e3, e4, e5⟩ := idx4 t
  funext j
  show FloatOps.addf (F := Ideal) (φ := .f32) (V c main_arg0 (((cfg4.win 0).blk t).view.emb j)) (V c main_v32 (((cfg4.win 1).blk t).view.emb j))
    = FloatOps.addf (F := Ideal) (φ := .f32) (V c main_arg0 (((cfg4.win 2).blk t).view.emb j)) (V c main_v32 (((cfg4.win 2).blk t).view.emb j))
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb j = ((cfg4.win 2).blk t).view.emb j := by
    funext a; apply Fin.ext
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 128 + 1 * (j 1).val = win4_2.index t (1 : Fin 2) * 128 + 1 * (j 1).val; omega
  rw [h0, h1]

/-- An index of the output array is in point `t`'s block iff each coordinate is in the block's range. -/
theorem mem_blk4 (t : Fin cfg4.N) (i : S1000000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v40).slice (win4_2.rect t)).set ↔ _
  rw [View.set_slice_whole, Rect.mem_set_unit]
  exact Iff.rfl

/-- Every row of the output lies in the block of the point `row / 10000`. -/
theorem cover4 (i : S1000000x128.Idx) :
    ∃ t : Fin cfg4.N, (cfg4.win 2).flush t = true ∧ i ∈ ((cfg4.win 2).blk t).view.set := by
  have hi0 : (i 0).val < 1000000 := (i 0).isLt
  have hi1 : (i 1).val < 128 := (i 1).isLt
  have hN : cfg4.N = 100 := N_4
  refine ⟨⟨(i 0).val / 10000, by rw [hN]; omega⟩, flush4_2 _, ?_⟩
  rw [mem_blk4]
  obtain ⟨e0, e1, e2, e3, e4, e5⟩ := idx4 ⟨(i 0).val / 10000, by rw [hN]; omega⟩
  intro a
  match a with
  | ⟨0, _⟩ => show win4_2.index _ (0 : Fin 2) * 10000 ≤ (i 0).val ∧ (i 0).val < win4_2.index _ (0 : Fin 2) * 10000 + 10000; rw [e4]; show (i 0).val / 10000 * 10000 ≤ (i 0).val ∧ (i 0).val < (i 0).val / 10000 * 10000 + 10000; omega
  | ⟨1, _⟩ => show win4_2.index _ (1 : Fin 2) * 128 ≤ (i 1).val ∧ (i 1).val < win4_2.index _ (1 : Fin 2) * 128 + 128; rw [e5]; omega

/-- The output array after the region: the entrywise sum of the arrays as the region finds them. -/
theorem final4 (c : Dev nD) :
    (dat4 V c).arrAt 2 cfg4.N = (addf (V c main_arg0) (V c main_v32) : FVec Ideal S1000000x128 .f32) :=
  (dat4 V c).arrAt_eq_of_cover 2 _ (fun t _ => flushed4_eq V c t) (cover4)

end Cert.KernelIdeal.Hand

end
-- ==== Proof.Residual5.lean ====
/-
  What each residual-sum region leaves in its output array, as one function of the arrays the region finds on entry
  (`V`, a parameter: the run instantiates it per region). A grid point stages the same block of rows of every input,
  adds them entry by entry, and writes the block of sums back to the same rows of the output. The blocks tile the
  output, so after the last point the output is the entrywise sum of the input arrays.
-/
import proofs.«129119_j15255723835508_1_alg».proof.Proof.Gen.KernelIdeal.Frame
import Idealize.ShloMosaic.Lib.Pipeline.Value
import proofs.«129119_j15255723835508_1_alg».proof.Proof.Spec

set_option maxRecDepth 16384

open scoped BigOperators

noncomputable section

namespace Cert.KernelIdeal.Hand

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Region 5: the sum of 3 arrays of 100000 rows, 20 blocks of 5000 rows -/

/-- The body's stored value is the entrywise sum of its input blocks. -/
theorem pay5_eq (x0 : Vec Ideal S5000x128 .f32) (x1 : Vec Ideal S5000x128 .f32) (x2 : Vec Ideal S5000x128 .f32) : k5_pay1 (F := Ideal) x0 x1 x2 = addf (addf x0 x1) x2 := by
  unfold k5_pay1
  simp only [shapeCast_self]

/-- The printed index maps: every window's block at point `t` is rows `5000 t …`, all 128 columns. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- What point `t` writes back is block `t` of the entrywise sum of the arrays as the region finds them: all the
    windows move together. -/
theorem flushed5_eq (c : Dev nD) (t : Fin cfg5.N) :
    (dat5 V c).flushed 3 t = ((cfg5.win 3).blk t).view.read (Elt Ideal)
      (addf (addf (V c main_arg1) (V c main_v24)) (V c main_v39) : FVec Ideal S100000x128 .f32) := by
  show (cfg5.win 3).cut (grid5.coords t) ((dat5 V c).after 3 t) = _
  rw [after5_3]
  unfold out5_3
  rw [View.canon_unit_zero zero_offsets]
  simp only [View.ld_unit_zero (S := S5000x128) zero_offsets]
  rw [pay5_eq]
  obtain ⟨e0, e1, e2, e3, e4, e5, e6, e7⟩ := idx5 t
  funext j
  show FloatOps.addf (F := Ideal) (φ := .f32) (FloatOps.addf (F := Ideal) (φ := .f32) (V c main_arg1 (((cfg5.win 0).blk t).view.emb j)) (V c main_v24 (((cfg5.win 1).blk t).view.emb j))) (V c main_v39 (((cfg5.win 2).blk t).view.emb j))
    = FloatOps.addf (F := Ideal) (φ := .f32) (FloatOps.addf (F := Ideal) (φ := .f32) (V c main_arg1 (((cfg5.win 3).blk t).view.emb j)) (V c main_v24 (((cfg5.win 3).blk t).view.emb j))) (V c main_v39 (((cfg5.win 3).blk t).view.emb j))
  have h0 : ((cfg5.win 0).blk t).view.emb j = ((cfg5.win 3).blk t).view.emb j := by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * (j 1).val = win5_3.index t (1 : Fin 2) * 128 + 1 * (j 1).val; omega
  have h1 : ((cfg5.win 1).blk t).view.emb j = ((cfg5.win 3).blk t).view.emb j := by
    funext a; apply Fin.ext
    match a with
    | ⟨0, _⟩ => show win5_1.index t (0 : Fin 2) * 5000 + 1 * (j 0).val = win5_3.index t (0 : Fin 2) * 5000 + 1 * (j 0).val; omega
    | ⟨1, _⟩ => show win5_1.index t (1 : Fin 2) * 128 + 1 * (j 1).val = win5_3.index t (1 : Fin 2) * 128 + 1 * (j 1).val; omega
  have h2 : ((cfg5.win 2).blk t).view.emb j = ((cfg5.win 3).blk t).view.emb j := by
    funext a; apply Fin.ext
    match a with
    | ⟨0, _⟩ => show win5_2.index t (0 : Fin 2) * 5000 + 1 * (j 0).val = win5_3.index t (0 : Fin 2) * 5000 + 1 * (j 0).val; omega
    | ⟨1, _⟩ => show win5_2.index t (1 : Fin 2) * 128 + 1 * (j 1).val = win5_3.index t (1 : Fin 2) * 128 + 1 * (j 1).val; omega
  rw [h0, h1, h2]

/-- An index of the output array is in point `t`'s block iff each coordinate is in the block's range. -/
theorem mem_blk5 (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v41).slice (win5_3.rect t)).set ↔ _
  rw [View.set_slice_whole, Rect.mem_set_unit]
  exact Iff.rfl

/-- Every row of the output lies in the block of the point `row / 5000`. -/
theorem cover5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 20 := N_5
  refine ⟨⟨(i 0).val / 5000, by rw [hN]; omega⟩, flush5_3 _, ?_⟩
  rw [mem_blk5]
  obtain ⟨e0, e1, e2, e3, e4, e5, e6, e7⟩ := idx5 ⟨(i 0).val / 5000, by rw [hN]; omega⟩
  intro a
  match a with
  | ⟨0, _⟩ => show win5_3.index _ (0 : Fin 2) * 5000 ≤ (i 0).val ∧ (i 0).val < win5_3.index _ (0 : Fin 2) * 5000 + 5000; rw [e6]; show (i 0).val / 5000 * 5000 ≤ (i 0).val ∧ (i 0).val < (i 0).val / 5000 * 5000 + 5000; omega
  | ⟨1, _⟩ => show win5_3.index _ (1 : Fin 2) * 128 ≤ (i 1).val ∧ (i 1).val < win5_3.index _ (1 : Fin 2) * 128 + 128; rw [e7]; omega

/-- The output array after the region: the entrywise sum of the arrays as the region finds them. -/
theorem final5 (c : Dev nD) :
    (dat5 V c).arrAt 3 cfg5.N = (addf (addf (V c main_arg1) (V c main_v24)) (V c main_v39) : FVec Ideal S100000x128 .f32) :=
  (dat5 V c).arrAt_eq_of_cover 3 _ (fun t _ => flushed5_eq V c t) (cover5)

end Cert.KernelIdeal.Hand

end
-- ==== Proof.Residual6.lean ====
/-
  What each residual-sum region leaves in its output array, as one function of the arrays the region finds on entry
  (`V`, a parameter: the run instantiates it per region). A grid point stages the same block of rows of every input,
  adds them entry by entry, and writes the block of sums back to the same rows of the output. The blocks tile the
  output, so after the last point the output is the entrywise sum of the input arrays.
-/
import proofs.«129119_j15255723835508_1_alg».proof.Proof.Gen.KernelIdeal.Frame
import Idealize.ShloMosaic.Lib.Pipeline.Value
import proofs.«129119_j15255723835508_1_alg».proof.Proof.Spec

set_option maxRecDepth 16384

open scoped BigOperators

noncomputable section

namespace Cert.KernelIdeal.Hand

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Region 6: the sum of 2 arrays of 10000 rows, one block -/

/-- The body's stored value is the entrywise sum of its input blocks. -/
theorem pay6_eq (x0 : Vec Ideal S10000x128 .f32) (x1 : Vec Ideal S10000x128 .f32) : k6_pay1 (F := Ideal) x0 x1 = addf x0 x1 := by
  unfold k6_pay1
  simp only [shapeCast_self]

/-- The printed index maps: every window's block at point `t` is rows `10000 t …`, all 128 columns. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the entrywise sum of the arrays as the region finds them: all the
    windows move together. -/
theorem flushed6_eq (c : Dev nD) (t : Fin cfg6.N) :
    (dat6 V c).flushed 2 t = ((cfg6.win 2).blk t).view.read (Elt Ideal)
      (addf (V c main_arg2) (V c main_v25) : FVec Ideal S10000x128 .f32) := by
  show (cfg6.win 2).cut (grid6.coords t) ((dat6 V c).after 2 t) = _
  rw [after6_2]
  unfold out6_2
  rw [View.canon_unit_zero zero_offsets]
  simp only [View.ld_unit_zero (S := S10000x128) zero_offsets]
  rw [pay6_eq]
  obtain ⟨e0, e1, e2, e3, e4, e5⟩ := idx6 t
  funext j
  show FloatOps.addf (F := Ideal) (φ := .f32) (V c main_arg2 (((cfg6.win 0).blk t).view.emb j)) (V c main_v25 (((cfg6.win 1).blk t).view.emb j))
    = FloatOps.addf (F := Ideal) (φ := .f32) (V c main_arg2 (((cfg6.win 2).blk t).view.emb j)) (V c main_v25 (((cfg6.win 2).blk t).view.emb j))
  have h0 : ((cfg6.win 0).blk t).view.emb j = ((cfg6.win 2).blk t).view.emb j := by
    funext a; apply Fin.ext
    match a with
    | ⟨0, _⟩ => show win6_0.index t (0 : Fin 2) * 10000 + 1 * (j 0).val = win6_2.index t (0 : Fin 2) * 10000 + 1 * (j 0).val; omega
    | ⟨1, _⟩ => show win6_0.index t (1 : Fin 2) * 128 + 1 * (j 1).val = win6_2.index t (1 : Fin 2) * 128 + 1 * (j 1).val; omega
  have h1 : ((cfg6.win 1).blk t).view.emb j = ((cfg6.win 2).blk t).view.emb j := by
    funext a; apply Fin.ext
    match a with
    | ⟨0, _⟩ => show win6_1.index t (0 : Fin 2) * 10000 + 1 * (j 0).val = win6_2.index t (0 : Fin 2) * 10000 + 1 * (j 0).val; omega
    | ⟨1, _⟩ => show win6_1.index t (1 : Fin 2) * 128 + 1 * (j 1).val = win6_2.index t (1 : Fin 2) * 128 + 1 * (j 1).val; omega
  rw [h0, h1]

/-- An index of the output array is in point `t`'s block iff each coordinate is in the block's range. -/
theorem mem_blk6 (t : Fin cfg6.N) (i : S10000x128.Idx) :
    i ∈ ((cfg6.win 2).blk t).view.set ↔ ∀ a : Fin 2, win6_2.index t a * S10000x128.size a ≤ (i a).val ∧ (i a).val < win6_2.index t a * S10000x128.size a + S10000x128.size a := by
  show i ∈ ((View.whole main_v42).slice (win6_2.rect t)).set ↔ _
  rw [View.set_slice_whole, Rect.mem_set_unit]
  exact Iff.rfl

/-- Every row of the output lies in the block of the point `row / 10000`. -/
theorem cover6 (i : S10000x128.Idx) :
    ∃ t : Fin cfg6.N, (cfg6.win 2).flush t = true ∧ i ∈ ((cfg6.win 2).blk t).view.set := by
  have hi0 : (i 0).val < 10000 := (i 0).isLt
  have hi1 : (i 1).val < 128 := (i 1).isLt
  have hN : cfg6.N = 1 := N_6
  refine ⟨⟨(i 0).val / 10000, by rw [hN]; omega⟩, flush6_2 _, ?_⟩
  rw [mem_blk6]
  obtain ⟨e0, e1, e2, e3, e4, e5⟩ := idx6 ⟨(i 0).val / 10000, by rw [hN]; omega⟩
  intro a
  match a with
  | ⟨0, _⟩ => show win6_2.index _ (0 : Fin 2) * 10000 ≤ (i 0).val ∧ (i 0).val < win6_2.index _ (0 : Fin 2) * 10000 + 10000; rw [e4]; show (i 0).val / 10000 * 10000 ≤ (i 0).val ∧ (i 0).val < (i 0).val / 10000 * 10000 + 10000; omega
  | ⟨1, _⟩ => show win6_2.index _ (1 : Fin 2) * 128 ≤ (i 1).val ∧ (i 1).val < win6_2.index _ (1 : Fin 2) * 128 + 128; rw [e5]; omega

/-- The output array after the region: the entrywise sum of the arrays as the region finds them. -/
theorem final6 (c : Dev nD) :
    (dat6 V c).arrAt 2 cfg6.N = (addf (V c main_arg2) (V c main_v25) : FVec Ideal S10000x128 .f32) :=
  (dat6 V c).arrAt_eq_of_cover 2 _ (fun t _ => flushed6_eq V c t) (cover6)

end Cert.KernelIdeal.Hand

end
-- ==== Proof.Fold.lean ====
/-
  The contents of the kernel's buffers at each boundary between its regions and host stretches, read back to the
  arguments. The generated fold `W0 … W9` says what each boundary holds in terms of the one before: a region leaves
  its output array at what its write-backs fold to and every other buffer alone; a host stretch leaves each buffer it
  writes at its operations' term and every other buffer alone. Walking the fold forward, every buffer a later step
  reads is named as a function of the nine arguments:
    v0  = x1 · Wc2f0ᵀ,  v1 = x2 · Wc2f1ᵀ            (regions 0, 1)
    v12 = mean of x0 over cluster1,  v23 = mean of x1 over cluster2   (host)
    v24 = v12 · Wf2c0ᵀ, v25 = v23 · Wf2c1ᵀ           (regions 2, 3)
    v32 = v0[cluster1], v39 = v1[cluster2]            (host)
    v40 = x0 + v32,  v41 = (x1 + v24) + v39,  v42 = x2 + v25   (regions 4, 5, 6).
  A lemma `b_atK` states buffer `b`'s contents at boundary `K`.
-/
import proofs.«129119_j15255723835508_1_alg».proof.Proof.Gen.KernelIdeal.Frame
import Idealize.ShloMosaic.Lib.StableHlo.Run
import proofs.«129119_j15255723835508_1_alg».proof.Proof.Spec
import proofs.«129119_j15255723835508_1_alg».proof.Proof.HostTerms
import proofs.«129119_j15255723835508_1_alg».proof.Proof.Linear0
import proofs.«129119_j15255723835508_1_alg».proof.Proof.Linear1
import proofs.«129119_j15255723835508_1_alg».proof.Proof.Linear2
import proofs.«129119_j15255723835508_1_alg».proof.Proof.Linear3
import proofs.«129119_j15255723835508_1_alg».proof.Proof.Residual4
import proofs.«129119_j15255723835508_1_alg».proof.Proof.Residual5
import proofs.«129119_j15255723835508_1_alg».proof.Proof.Residual6

set_option maxRecDepth 16384

open scoped BigOperators

noncomputable section

namespace Cert.KernelIdeal.Hand

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-- A host stretch leaves alone a buffer none of its operations writes. -/
local macro "host_keep " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem arg0_at0 : W0 m ρ c (Proc.devRef .tc main_arg0) = (m ((c : Thread nD τ).loc main_arg0)) := rfl

theorem arg1_at0 : W0 m ρ c (Proc.devRef .tc main_arg1) = (m ((c : Thread nD τ).loc main_arg1)) := rfl

theorem arg2_at0 : W0 m ρ c (Proc.devRef .tc main_arg2) = (m ((c : Thread nD τ).loc main_arg2)) := rfl

theorem arg3_at0 : W0 m ρ c (Proc.devRef .tc main_arg3) = (m ((c : Thread nD τ).loc main_arg3)) := rfl

theorem arg4_at0 : W0 m ρ c (Proc.devRef .tc main_arg4) = (m ((c : Thread nD τ).loc main_arg4)) := rfl

theorem arg5_at0 : W0 m ρ c (Proc.devRef .tc main_arg5) = (m ((c : Thread nD τ).loc main_arg5)) := rfl

theorem arg6_at0 : W0 m ρ c (Proc.devRef .tc main_arg6) = (m ((c : Thread nD τ).loc main_arg6)) := rfl

theorem arg7_at0 : W0 m ρ c (Proc.devRef .tc main_arg7) = (m ((c : Thread nD τ).loc main_arg7)) := rfl

theorem arg8_at0 : W0 m ρ c (Proc.devRef .tc main_arg8) = (m ((c : Thread nD τ).loc main_arg8)) := rfl

theorem arg0_at1 : W1 m ρ c (Proc.devRef .tc main_arg0) = (m ((c : Thread nD τ).loc main_arg0)) := (W1_of_ne m ρ c main_arg0 (by decide)).trans (arg0_at0 m ρ c)

theorem arg1_at1 : W1 m ρ c (Proc.devRef .tc main_arg1) = (m ((c : Thread nD τ).loc main_arg1)) :=
  ((W1_arr m ρ c 0).trans (((dat0 (V0 m ρ) c).arrAt_in 0 rfl _).trans (A_eq0 (V0 m ρ) c 0))).trans (arg1_at0 m ρ c)

theorem arg2_at1 : W1 m ρ c (Proc.devRef .tc main_arg2) = (m ((c : Thread nD τ).loc main_arg2)) := (W1_of_ne m ρ c main_arg2 (by decide)).trans (arg2_at0 m ρ c)

theorem arg3_at1 : W1 m ρ c (Proc.devRef .tc main_arg3) = (m ((c : Thread nD τ).loc main_arg3)) := (W1_of_ne m ρ c main_arg3 (by decide)).trans (arg3_at0 m ρ c)

theorem arg4_at1 : W1 m ρ c (Proc.devRef .tc main_arg4) = (m ((c : Thread nD τ).loc main_arg4)) := (W1_of_ne m ρ c main_arg4 (by decide)).trans (arg4_at0 m ρ c)

theorem arg5_at1 : W1 m ρ c (Proc.devRef .tc main_arg5) = (m ((c : Thread nD τ).loc main_arg5)) := (W1_of_ne m ρ c main_arg5 (by decide)).trans (arg5_at0 m ρ c)

theorem arg6_at1 : W1 m ρ c (Proc.devRef .tc main_arg6) = (m ((c : Thread nD τ).loc main_arg6)) := (W1_of_ne m ρ c main_arg6 (by decide)).trans (arg6_at0 m ρ c)

theorem arg8_at1 : W1 m ρ c (Proc.devRef .tc main_arg8) = (m ((c : Thread nD τ).loc main_arg8)) := (W1_of_ne m ρ c main_arg8 (by decide)).trans (arg8_at0 m ρ c)

/-- Region 0 writes `main_v0`: its output array after the region, at the arrays the region found. -/
theorem v0_at1 : W1 m ρ c (Proc.devRef .tc main_v0) = (rowsByRows (n := 100000) (m ((c : Thread nD τ).loc main_arg1)) (m ((c : Thread nD τ).loc main_arg7))) :=
  (W1_arr m ρ c 2).trans ((final0 (V0 m ρ) c).trans (congrArg₂ (rowsByRows (n := 100000)) (arg1_at0 m ρ c) (arg7_at0 m ρ c)))

theorem arg0_at2 : W2 m ρ c (Proc.devRef .tc main_arg0) = (m ((c : Thread nD τ).loc main_arg0)) := (W2_of_ne m ρ c main_arg0 (by decide)).trans (arg0_at1 m ρ c)

theorem arg1_at2 : W2 m ρ c (Proc.devRef .tc main_arg1) = (m ((c : Thread nD τ).loc main_arg1)) := (W2_of_ne m ρ c main_arg1 (by decide)).trans (arg1_at1 m ρ c)

theorem arg2_at2 : W2 m ρ c (Proc.devRef .tc main_arg2) = (m ((c : Thread nD τ).loc main_arg2)) :=
  ((W2_arr m ρ c 0).trans (((dat1 (V1 m ρ) c).arrAt_in 0 rfl _).trans (A_eq1 (V1 m ρ) c 0))).trans (arg2_at1 m ρ c)

theorem arg3_at2 : W2 m ρ c (Proc.devRef .tc main_arg3) = (m ((c : Thread nD τ).loc main_arg3)) := (W2_of_ne m ρ c main_arg3 (by decide)).trans (arg3_at1 m ρ c)

theorem arg4_at2 : W2 m ρ c (Proc.devRef .tc main_arg4) = (m ((c : Thread nD τ).loc main_arg4)) := (W2_of_ne m ρ c main_arg4 (by decide)).trans (arg4_at1 m ρ c)

theorem arg5_at2 : W2 m ρ c (Proc.devRef .tc main_arg5) = (m ((c : Thread nD τ).loc main_arg5)) := (W2_of_ne m ρ c main_arg5 (by decide)).trans (arg5_at1 m ρ c)

theorem arg6_at2 : W2 m ρ c (Proc.devRef .tc main_arg6) = (m ((c : Thread nD τ).loc main_arg6)) := (W2_of_ne m ρ c main_arg6 (by decide)).trans (arg6_at1 m ρ c)

theorem v0_at2 : W2 m ρ c (Proc.devRef .tc main_v0) = (rowsByRows (n := 100000) (m ((c : Thread nD τ).loc main_arg1)) (m ((c : Thread nD τ).loc main_arg7))) := (W2_of_ne m ρ c main_v0 (by decide)).trans (v0_at1 m ρ c)

/-- Region 1 writes `main_v1`: its output array after the region, at the arrays the region found. -/
theorem v1_at2 : W2 m ρ c (Proc.devRef .tc main_v1) = (rowsByRows (n := 10000) (m ((c : Thread nD τ).loc main_arg2)) (m ((c : Thread nD τ).loc main_arg8))) :=
  (W2_arr m ρ c 2).trans ((final1 (V1 m ρ) c).trans (congrArg₂ (rowsByRows (n := 10000)) (arg2_at1 m ρ c) (arg8_at1 m ρ c)))

theorem arg0_at3 : W3 m ρ c (Proc.devRef .tc main_arg0) = (m ((c : Thread nD τ).loc main_arg0)) := by
  refine Eq.trans ?_ (arg0_at2 m ρ c)
  host_keep hostOps2

theorem arg1_at3 : W3 m ρ c (Proc.devRef .tc main_arg1) = (m ((c : Thread nD τ).loc main_arg1)) := by
  refine Eq.trans ?_ (arg1_at2 m ρ c)
  host_keep hostOps2

theorem arg2_at3 : W3 m ρ c (Proc.devRef .tc main_arg2) = (m ((c : Thread nD τ).loc main_arg2)) := by
  refine Eq.trans ?_ (arg2_at2 m ρ c)
  host_keep hostOps2

theorem arg3_at3 : W3 m ρ c (Proc.devRef .tc main_arg3) = (m ((c : Thread nD τ).loc main_arg3)) := by
  refine Eq.trans ?_ (arg3_at2 m ρ c)
  host_keep hostOps2

theorem arg4_at3 : W3 m ρ c (Proc.devRef .tc main_arg4) = (m ((c : Thread nD τ).loc main_arg4)) := by
  refine Eq.trans ?_ (arg4_at2 m ρ c)
  host_keep hostOps2

theorem arg5_at3 : W3 m ρ c (Proc.devRef .tc main_arg5) = (m ((c : Thread nD τ).loc main_arg5)) := by
  refine Eq.trans ?_ (arg5_at2 m ρ c)
  host_keep hostOps2

theorem arg6_at3 : W3 m ρ c (Proc.devRef .tc main_arg6) = (m ((c : Thread nD τ).loc main_arg6)) := by
  refine Eq.trans ?_ (arg6_at2 m ρ c)
  host_keep hostOps2

theorem v0_at3 : W3 m ρ c (Proc.devRef .tc main_v0) = (rowsByRows (n := 100000) (m ((c : Thread nD τ).loc main_arg1)) (m ((c : Thread nD τ).loc main_arg7))) := by
  refine Eq.trans ?_ (v0_at2 m ρ c)
  host_keep hostOps2

theorem v1_at3 : W3 m ρ c (Proc.devRef .tc main_v1) = (rowsByRows (n := 10000) (m ((c : Thread nD τ).loc main_arg2)) (m ((c : Thread nD τ).loc main_arg8))) := by
  refine Eq.trans ?_ (v1_at2 m ρ c)
  host_keep hostOps2

/-- The host stretch writes `main_v12` from the contents it is entered with. -/
theorem v12_at3 : W3 m ρ c (Proc.devRef .tc main_v12) = (clusterMean1 (m ((c : Thread nD τ).loc main_arg0)) (m ((c : Thread nD τ).loc main_arg3))) := by
  have e : W3 m ρ c (Proc.devRef .tc main_v12) = clusterMean1 (W2 m ρ c (Proc.devRef .tc main_arg0)) (W2 m ρ c (Proc.devRef .tc main_arg3)) := by
    show StableHlo.after hostOps2 (W2 m ρ c) (Proc.devRef .tc main_v12) = _
    after_results_simp <;> rfl
  exact e.trans (congrArg₂ clusterMean1 (arg0_at2 m ρ c) (arg3_at2 m ρ c))

/-- The host stretch writes `main_v23` from the contents it is entered with. -/
theorem v23_at3 : W3 m ρ c (Proc.devRef .tc main_v23) = (clusterMean2 (m ((c : Thread nD τ).loc main_arg1)) (m ((c : Thread nD τ).loc main_arg4))) := by
  have e : W3 m ρ c (Proc.devRef .tc main_v23) = clusterMean2 (W2 m ρ c (Proc.devRef .tc main_arg1)) (W2 m ρ c (Proc.devRef .tc main_arg4)) := by
    show StableHlo.after hostOps2 (W2 m ρ c) (Proc.devRef .tc main_v23) = _
    after_results_simp <;> rfl
  exact e.trans (congrArg₂ clusterMean2 (arg1_at2 m ρ c) (arg4_at2 m ρ c))

theorem arg0_at4 : W4 m ρ c (Proc.devRef .tc main_arg0) = (m ((c : Thread nD τ).loc main_arg0)) := (W4_of_ne m ρ c main_arg0 (by decide)).trans (arg0_at3 m ρ c)

theorem arg1_at4 : W4 m ρ c (Proc.devRef .tc main_arg1) = (m ((c : Thread nD τ).loc main_arg1)) := (W4_of_ne m ρ c main_arg1 (by decide)).trans (arg1_at3 m ρ c)

theorem arg2_at4 : W4 m ρ c (Proc.devRef .tc main_arg2) = (m ((c : Thread nD τ).loc main_arg2)) := (W4_of_ne m ρ c main_arg2 (by decide)).trans (arg2_at3 m ρ c)

theorem arg3_at4 : W4 m ρ c (Proc.devRef .tc main_arg3) = (m ((c : Thread nD τ).loc main_arg3)) := (W4_of_ne m ρ c main_arg3 (by decide)).trans (arg3_at3 m ρ c)

theorem arg4_at4 : W4 m ρ c (Proc.devRef .tc main_arg4) = (m ((c : Thread nD τ).loc main_arg4)) := (W4_of_ne m ρ c main_arg4 (by decide)).trans (arg4_at3 m ρ c)

theorem arg6_at4 : W4 m ρ c (Proc.devRef .tc main_arg6) = (m ((c : Thread nD τ).loc main_arg6)) := (W4_of_ne m ρ c main_arg6 (by decide)).trans (arg6_at3 m ρ c)

theorem v0_at4 : W4 m ρ c (Proc.devRef .tc main_v0) = (rowsByRows (n := 100000) (m ((c : Thread nD τ).loc main_arg1)) (m ((c : Thread nD τ).loc main_arg7))) := (W4_of_ne m ρ c main_v0 (by decide)).trans (v0_at3 m ρ c)

theorem v1_at4 : W4 m ρ c (Proc.devRef .tc main_v1) = (rowsByRows (n := 10000) (m ((c : Thread nD τ).loc main_arg2)) (m ((c : Thread nD τ).loc main_arg8))) := (W4_of_ne m ρ c main_v1 (by decide)).trans (v1_at3 m ρ c)

theorem v23_at4 : W4 m ρ c (Proc.devRef .tc main_v23) = (clusterMean2 (m ((c : Thread nD τ).loc main_arg1)) (m ((c : Thread nD τ).loc main_arg4))) := (W4_of_ne m ρ c main_v23 (by decide)).trans (v23_at3 m ρ c)

/-- Region 2 writes `main_v24`: its output array after the region, at the arrays the region found. -/
theorem v24_at4 : W4 m ρ c (Proc.devRef .tc main_v24) = (rowsByRows (n := 100000) (clusterMean1 (m ((c : Thread nD τ).loc main_arg0)) (m ((c : Thread nD τ).loc main_arg3))) (m ((c : Thread nD τ).loc main_arg5))) :=
  (W4_arr m ρ c 2).trans ((final2 (V3 m ρ) c).trans (congrArg₂ (rowsByRows (n := 100000)) (v12_at3 m ρ c) (arg5_at3 m ρ c)))

theorem arg0_at5 : W5 m ρ c (Proc.devRef .tc main_arg0) = (m ((c : Thread nD τ).loc main_arg0)) := (W5_of_ne m ρ c main_arg0 (by decide)).trans (arg0_at4 m ρ c)

theorem arg1_at5 : W5 m ρ c (Proc.devRef .tc main_arg1) = (m ((c : Thread nD τ).loc main_arg1)) := (W5_of_ne m ρ c main_arg1 (by decide)).trans (arg1_at4 m ρ c)

theorem arg2_at5 : W5 m ρ c (Proc.devRef .tc main_arg2) = (m ((c : Thread nD τ).loc main_arg2)) := (W5_of_ne m ρ c main_arg2 (by decide)).trans (arg2_at4 m ρ c)

theorem arg3_at5 : W5 m ρ c (Proc.devRef .tc main_arg3) = (m ((c : Thread nD τ).loc main_arg3)) := (W5_of_ne m ρ c main_arg3 (by decide)).trans (arg3_at4 m ρ c)

theorem arg4_at5 : W5 m ρ c (Proc.devRef .tc main_arg4) = (m ((c : Thread nD τ).loc main_arg4)) := (W5_of_ne m ρ c main_arg4 (by decide)).trans (arg4_at4 m ρ c)

theorem v0_at5 : W5 m ρ c (Proc.devRef .tc main_v0) = (rowsByRows (n := 100000) (m ((c : Thread nD τ).loc main_arg1)) (m ((c : Thread nD τ).loc main_arg7))) := (W5_of_ne m ρ c main_v0 (by decide)).trans (v0_at4 m ρ c)

theorem v1_at5 : W5 m ρ c (Proc.devRef .tc main_v1) = (rowsByRows (n := 10000) (m ((c : Thread nD τ).loc main_arg2)) (m ((c : Thread nD τ).loc main_arg8))) := (W5_of_ne m ρ c main_v1 (by decide)).trans (v1_at4 m ρ c)

theorem v24_at5 : W5 m ρ c (Proc.devRef .tc main_v24) = (rowsByRows (n := 100000) (clusterMean1 (m ((c : Thread nD τ).loc main_arg0)) (m ((c : Thread nD τ).loc main_arg3))) (m ((c : Thread nD τ).loc main_arg5))) := (W5_of_ne m ρ c main_v24 (by decide)).trans (v24_at4 m ρ c)

/-- Region 3 writes `main_v25`: its output array after the region, at the arrays the region found. -/
theorem v25_at5 : W5 m ρ c (Proc.devRef .tc main_v25) = (rowsByRows (n := 10000) (clusterMean2 (m ((c : Thread nD τ).loc main_arg1)) (m ((c : Thread nD τ).loc main_arg4))) (m ((c : Thread nD τ).loc main_arg6))) :=
  (W5_arr m ρ c 2).trans ((final3 (V4 m ρ) c).trans (congrArg₂ (rowsByRows (n := 10000)) (v23_at4 m ρ c) (arg6_at4 m ρ c)))

theorem arg0_at6 : W6 m ρ c (Proc.devRef .tc main_arg0) = (m ((c : Thread nD τ).loc main_arg0)) := by
  refine Eq.trans ?_ (arg0_at5 m ρ c)
  host_keep hostOps4

theorem arg1_at6 : W6 m ρ c (Proc.devRef .tc main_arg1) = (m ((c : Thread nD τ).loc main_arg1)) := by
  refine Eq.trans ?_ (arg1_at5 m ρ c)
  host_keep hostOps4

theorem arg2_at6 : W6 m ρ c (Proc.devRef .tc main_arg2) = (m ((c : Thread nD τ).loc main_arg2)) := by
  refine Eq.trans ?_ (arg2_at5 m ρ c)
  host_keep hostOps4

theorem v24_at6 : W6 m ρ c (Proc.devRef .tc main_v24) = (rowsByRows (n := 100000) (clusterMean1 (m ((c : Thread nD τ).loc main_arg0)) (m ((c : Thread nD τ).loc main_arg3))) (m ((c : Thread nD τ).loc main_arg5))) := by
  refine Eq.trans ?_ (v24_at5 m ρ c)
  host_keep hostOps4

theorem v25_at6 : W6 m ρ c (Proc.devRef .tc main_v25) = (rowsByRows (n := 10000) (clusterMean2 (m ((c : Thread nD τ).loc main_arg1)) (m ((c : Thread nD τ).loc main_arg4))) (m ((c : Thread nD τ).loc main_arg6))) := by
  refine Eq.trans ?_ (v25_at5 m ρ c)
  host_keep hostOps4

/-- The host stretch writes `main_v32` from the contents it is entered with. -/
theorem v32_at6 : W6 m ρ c (Proc.devRef .tc main_v32) = (pick1 (rowsByRows (n := 100000) (m ((c : Thread nD τ).loc main_arg1)) (m ((c : Thread nD τ).loc main_arg7))) (m ((c : Thread nD τ).loc main_arg3))) := by
  have e : W6 m ρ c (Proc.devRef .tc main_v32) = pick1 (W5 m ρ c (Proc.devRef .tc main_v0)) (W5 m ρ c (Proc.devRef .tc main_arg3)) := by
    show StableHlo.after hostOps4 (W5 m ρ c) (Proc.devRef .tc main_v32) = _
    after_results_simp <;> rfl
  exact e.trans (congrArg₂ pick1 (v0_at5 m ρ c) (arg3_at5 m ρ c))

/-- The host stretch writes `main_v39` from the contents it is entered with. -/
theorem v39_at6 : W6 m ρ c (Proc.devRef .tc main_v39) = (pick2 (rowsByRows (n := 10000) (m ((c : Thread nD τ).loc main_arg2)) (m ((c : Thread nD τ).loc main_arg8))) (m ((c : Thread nD τ).loc main_arg4))) := by
  have e : W6 m ρ c (Proc.devRef .tc main_v39) = pick2 (W5 m ρ c (Proc.devRef .tc main_v1)) (W5 m ρ c (Proc.devRef .tc main_arg4)) := by
    show StableHlo.after hostOps4 (W5 m ρ c) (Proc.devRef .tc main_v39) = _
    after_results_simp <;> rfl
  exact e.trans (congrArg₂ pick2 (v1_at5 m ρ c) (arg4_at5 m ρ c))

theorem arg1_at7 : W7 m ρ c (Proc.devRef .tc main_arg1) = (m ((c : Thread nD τ).loc main_arg1)) := (W7_of_ne m ρ c main_arg1 (by decide)).trans (arg1_at6 m ρ c)

theorem arg2_at7 : W7 m ρ c (Proc.devRef .tc main_arg2) = (m ((c : Thread nD τ).loc main_arg2)) := (W7_of_ne m ρ c main_arg2 (by decide)).trans (arg2_at6 m ρ c)

theorem v24_at7 : W7 m ρ c (Proc.devRef .tc main_v24) = (rowsByRows (n := 100000) (clusterMean1 (m ((c : Thread nD τ).loc main_arg0)) (m ((c : Thread nD τ).loc main_arg3))) (m ((c : Thread nD τ).loc main_arg5))) := (W7_of_ne m ρ c main_v24 (by decide)).trans (v24_at6 m ρ c)

theorem v25_at7 : W7 m ρ c (Proc.devRef .tc main_v25) = (rowsByRows (n := 10000) (clusterMean2 (m ((c : Thread nD τ).loc main_arg1)) (m ((c : Thread nD τ).loc main_arg4))) (m ((c : Thread nD τ).loc main_arg6))) := (W7_of_ne m ρ c main_v25 (by decide)).trans (v25_at6 m ρ c)

theorem v39_at7 : W7 m ρ c (Proc.devRef .tc main_v39) = (pick2 (rowsByRows (n := 10000) (m ((c : Thread nD τ).loc main_arg2)) (m ((c : Thread nD τ).loc main_arg8))) (m ((c : Thread nD τ).loc main_arg4))) := (W7_of_ne m ρ c main_v39 (by decide)).trans (v39_at6 m ρ c)

/-- Region 4 writes `main_v40`: its output array after the region, at the arrays the region found. -/
theorem v40_at7 : W7 m ρ c (Proc.devRef .tc main_v40) = (addf (m ((c : Thread nD τ).loc main_arg0)) (pick1 (rowsByRows (n := 100000) (m ((c : Thread nD τ).loc main_arg1)) (m ((c : Thread nD τ).loc main_arg7))) (m ((c : Thread nD τ).loc main_arg3))) : FVec Ideal S1000000x128 .f32) :=
  (W7_arr m ρ c 2).trans ((final4 (V6 m ρ) c).trans (congrArg₂ addf (arg0_at6 m ρ c) (v32_at6 m ρ c)))

theorem arg2_at8 : W8 m ρ c (Proc.devRef .tc main_arg2) = (m ((c : Thread nD τ).loc main_arg2)) := (W8_of_ne m ρ c main_arg2 (by decide)).trans (arg2_at7 m ρ c)

theorem v25_at8 : W8 m ρ c (Proc.devRef .tc main_v25) = (rowsByRows (n := 10000) (clusterMean2 (m ((c : Thread nD τ).loc main_arg1)) (m ((c : Thread nD τ).loc main_arg4))) (m ((c : Thread nD τ).loc main_arg6))) := (W8_of_ne m ρ c main_v25 (by decide)).trans (v25_at7 m ρ c)

theorem v40_at8 : W8 m ρ c (Proc.devRef .tc main_v40) = (addf (m ((c : Thread nD τ).loc main_arg0)) (pick1 (rowsByRows (n := 100000) (m ((c : Thread nD τ).loc main_arg1)) (m ((c : Thread nD τ).loc main_arg7))) (m ((c : Thread nD τ).loc main_arg3))) : FVec Ideal S1000000x128 .f32) := (W8_of_ne m ρ c main_v40 (by decide)).trans (v40_at7 m ρ c)

/-- Region 5 writes `main_v41`: its output array after the region, at the arrays the region found. -/
theorem v41_at8 : W8 m ρ c (Proc.devRef .tc main_v41) = (addf (addf (m ((c : Thread nD τ).loc main_arg1)) (rowsByRows (n := 100000) (clusterMean1 (m ((c : Thread nD τ).loc main_arg0)) (m ((c : Thread nD τ).loc main_arg3))) (m ((c : Thread nD τ).loc main_arg5)))) (pick2 (rowsByRows (n := 10000) (m ((c : Thread nD τ).loc main_arg2)) (m ((c : Thread nD τ).loc main_arg8))) (m ((c : Thread nD τ).loc main_arg4))) : FVec Ideal S100000x128 .f32) :=
  (W8_arr m ρ c 3).trans ((final5 (V7 m ρ) c).trans (congrArg₂ addf (congrArg₂ addf (arg1_at7 m ρ c) (v24_at7 m ρ c)) (v39_at7 m ρ c)))

theorem v40_at9 : W9 m ρ c (Proc.devRef .tc main_v40) = (addf (m ((c : Thread nD τ).loc main_arg0)) (pick1 (rowsByRows (n := 100000) (m ((c : Thread nD τ).loc main_arg1)) (m ((c : Thread nD τ).loc main_arg7))) (m ((c : Thread nD τ).loc main_arg3))) : FVec Ideal S1000000x128 .f32) := (W9_of_ne m ρ c main_v40 (by decide)).trans (v40_at8 m ρ c)

theorem v41_at9 : W9 m ρ c (Proc.devRef .tc main_v41) = (addf (addf (m ((c : Thread nD τ).loc main_arg1)) (rowsByRows (n := 100000) (clusterMean1 (m ((c : Thread nD τ).loc main_arg0)) (m ((c : Thread nD τ).loc main_arg3))) (m ((c : Thread nD τ).loc main_arg5)))) (pick2 (rowsByRows (n := 10000) (m ((c : Thread nD τ).loc main_arg2)) (m ((c : Thread nD τ).loc main_arg8))) (m ((c : Thread nD τ).loc main_arg4))) : FVec Ideal S100000x128 .f32) := (W9_of_ne m ρ c main_v41 (by decide)).trans (v41_at8 m ρ c)

/-- Region 6 writes `main_v42`: its output array after the region, at the arrays the region found. -/
theorem v42_at9 : W9 m ρ c (Proc.devRef .tc main_v42) = (addf (m ((c : Thread nD τ).loc main_arg2)) (rowsByRows (n := 10000) (clusterMean2 (m ((c : Thread nD τ).loc main_arg1)) (m ((c : Thread nD τ).loc main_arg4))) (m ((c : Thread nD τ).loc main_arg6))) : FVec Ideal S10000x128 .f32) :=
  (W9_arr m ρ c 2).trans ((final6 (V8 m ρ) c).trans (congrArg₂ addf (arg2_at8 m ρ c) (v25_at8 m ρ c)))

end Cert.KernelIdeal.Hand

end
-- ==== Proof.RefTerms.lean ====
/-
  The reference's three results as the same functions of the arguments the kernel's fold arrives at. The reference
  spells each linear layer as the host's product of the input with the transposed weights; read entry by entry that is
  rows against rows (`Cert.Spec.dot_transpose_eq`). Its cluster means and its row look-ups are the very operations the
  kernel's host stretches apply, so they are matched as whole functions, never opened.
-/
import proofs.«129119_j15255723835508_1_alg».proof.Proof.Gen.ReferenceIdeal
import Idealize.ShloMosaic.PureOps.Ideal
import proofs.«129119_j15255723835508_1_alg».proof.Proof.Spec
import proofs.«129119_j15255723835508_1_alg».proof.Proof.HostTerms

set_option maxRecDepth 16384

noncomputable section

namespace Cert.ReferenceIdeal.Hand

open Cert.ReferenceIdeal Cert.ReferenceIdeal.Gen Cert.Spec
open Idealize.ShloMosaic Idealize.ShloMosaic.TcCoe

/-- The host's middle-scale linear layer, `x · Wᵀ` over 100000 rows, is rows against rows. -/
theorem lin1 (x : FVec Ideal S100000x128 .f32) (w : FVec Ideal S128x128 .f32) :
    Host.dotGeneral (F := Ideal) dot_S100000x128_S128x128_S100000x128_1_0_0_1_n_n none x (transpose S128x128 [1, 0] w transposes_S128x128_S128x128_1_0)
      = rowsByRows (n := 100000) x w :=
  dot_transpose_eq _ none _ x w

/-- The host's coarse-scale linear layer, `x · Wᵀ` over 10000 rows, is rows against rows. -/
theorem lin2 (x : FVec Ideal S10000x128 .f32) (w : FVec Ideal S128x128 .f32) :
    Host.dotGeneral (F := Ideal) dot_S10000x128_S128x128_S10000x128_1_0_0_1_n_n none x (transpose S128x128 [1, 0] w transposes_S128x128_S128x128_1_0)
      = rowsByRows (n := 10000) x w :=
  dot_transpose_eq _ none _ x w

/-- The fine result: `x0` plus, for each fine row, the row of `x1 · Wc2f0ᵀ` its cluster names. -/
theorem y0_eq (x0 : FVec Ideal S1000000x128 .f32) (x1 : FVec Ideal S100000x128 .f32)
    (x3 : (⟨S1000000, .i32⟩ : BufTy).Contents (Elt Ideal)) (x7 : FVec Ideal S128x128 .f32) :
    addf (F := Ideal) (x0) (Host.gather gather_S100000x128_S1000000x1_S1000000x128_1_0_n_n_0_1_1128 (Host.dotGeneral (F := Ideal) dot_S100000x128_S128x128_S100000x128_1_0_0_1_n_n none (x1) (transpose S128x128 [1, 0] (x7) transposes_S128x128_S128x128_1_0)) (broadcastInDim S1000000x1 ![0] bcast_S1000000_S1000000x1_0 (select (cmpi .slt (x3) (broadcastInDim S1000000 ![] bcast_S_S1000000 (constantI S_ 32 0#32))) (addi (x3) (broadcastInDim S1000000 ![] bcast_S_S1000000 (constantI S_ 32 100000#32))) (x3))))
      = addf (F := Ideal) x0 (Cert.KernelIdeal.Hand.pick1 (rowsByRows (n := 100000) x1 x7) x3) := by
  rw [lin1]
  rfl

/-- The middle result: `x1` plus the layer `Wf2c0` of the mean of `x0` over the middle clusters, plus, for each middle
    row, the row of `x2 · Wc2f1ᵀ` its cluster names. -/
theorem y1_eq (x0 : FVec Ideal S1000000x128 .f32) (x1 : FVec Ideal S100000x128 .f32)
    (x2 : FVec Ideal S10000x128 .f32)
    (x3 : (⟨S1000000, .i32⟩ : BufTy).Contents (Elt Ideal)) (x4 : (⟨S100000, .i32⟩ : BufTy).Contents (Elt Ideal))
    (x5 x8 : FVec Ideal S128x128 .f32) :
    addf (F := Ideal) (addf (F := Ideal) (x1) (Host.dotGeneral (F := Ideal) dot_S100000x128_S128x128_S100000x128_1_0_0_1_n_n none (Host.divf (F := Ideal) (Host.scatterAdd (F := Ideal) scatter_S100000x128_S1000000x1_S1000000x128_1_0_0_1 (broadcastInDim S100000x128 ![] bcast_S_S100000x128 (constant (F := Ideal) S_ .f32 0x00000000#32)) (broadcastInDim S1000000x1 ![0] bcast_S1000000_S1000000x1_0 (x3)) (x0)) (broadcastInDim S100000x128 ![0, 1] bcast_S100000x1_S100000x128_0_1 (maximumf (F := Ideal) (Host.scatterAdd (F := Ideal) scatter_S100000x1_S1000000x1_S1000000x1_1_0_0_1 (broadcastInDim S100000x1 ![] bcast_S_S100000x1 (constant (F := Ideal) S_ .f32 0x00000000#32)) (broadcastInDim S1000000x1 ![0] bcast_S1000000_S1000000x1_0 (x3)) (broadcastInDim S1000000x1 ![] bcast_S_S1000000x1 (constant (F := Ideal) S_ .f32 0x3F800000#32))) (broadcastInDim S100000x1 ![] bcast_S_S100000x1 (constant (F := Ideal) S_ .f32 0x3F800000#32))))) (transpose S128x128 [1, 0] (x5) transposes_S128x128_S128x128_1_0))) (Host.gather gather_S10000x128_S100000x1_S100000x128_1_0_n_n_0_1_1128 (Host.dotGeneral (F := Ideal) dot_S10000x128_S128x128_S10000x128_1_0_0_1_n_n none (x2) (transpose S128x128 [1, 0] (x8) transposes_S128x128_S128x128_1_0)) (broadcastInDim S100000x1 ![0] bcast_S100000_S100000x1_0 (select (cmpi .slt (x4) (broadcastInDim S100000 ![] bcast_S_S100000 (constantI S_ 32 0#32))) (addi (x4) (broadcastInDim S100000 ![] bcast_S_S100000 (constantI S_ 32 10000#32))) (x4))))
      = addf (F := Ideal) (addf (F := Ideal) x1 (rowsByRows (n := 100000) (Cert.KernelIdeal.Hand.clusterMean1 x0 x3) x5)) (Cert.KernelIdeal.Hand.pick2 (rowsByRows (n := 10000) x2 x8) x4) := by
  rw [lin1, lin2]
  rfl

/-- The coarse result: `x2` plus the layer `Wf2c1` of the mean of `x1` over the coarse clusters. -/
theorem y2_eq (x1 : FVec Ideal S100000x128 .f32) (x2 : FVec Ideal S10000x128 .f32)
    (x4 : (⟨S100000, .i32⟩ : BufTy).Contents (Elt Ideal)) (x6 : FVec Ideal S128x128 .f32) :
    addf (F := Ideal) (x2) (Host.dotGeneral (F := Ideal) dot_S10000x128_S128x128_S10000x128_1_0_0_1_n_n none (Host.divf (F := Ideal) (Host.scatterAdd (F := Ideal) scatter_S10000x128_S100000x1_S100000x128_1_0_0_1 (broadcastInDim S10000x128 ![] bcast_S_S10000x128 (constant (F := Ideal) S_ .f32 0x00000000#32)) (broadcastInDim S100000x1 ![0] bcast_S100000_S100000x1_0 (x4)) (x1)) (broadcastInDim S10000x128 ![0, 1] bcast_S10000x1_S10000x128_0_1 (maximumf (F := Ideal) (Host.scatterAdd (F := Ideal) scatter_S10000x1_S100000x1_S100000x1_1_0_0_1 (broadcastInDim S10000x1 ![] bcast_S_S10000x1 (constant (F := Ideal) S_ .f32 0x00000000#32)) (broadcastInDim S100000x1 ![0] bcast_S100000_S100000x1_0 (x4)) (broadcastInDim S100000x1 ![] bcast_S_S100000x1 (constant (F := Ideal) S_ .f32 0x3F800000#32))) (broadcastInDim S10000x1 ![] bcast_S_S10000x1 (constant (F := Ideal) S_ .f32 0x3F800000#32))))) (transpose S128x128 [1, 0] (x6) transposes_S128x128_S128x128_1_0))
      = addf (F := Ideal) x2 (rowsByRows (n := 10000) (Cert.KernelIdeal.Hand.clusterMean2 x1 x4) x6) := by
  rw [lin2]
  rfl

end Cert.ReferenceIdeal.Hand

end
-- ==== Proof.Claims.lean ====
/-
  The claims. The kernel computes, at three scales of a clustered point set,
    y0 = x0 + (x1 · Wc2f0ᵀ)[cluster1],
    y1 = x1 + mean(x0 over cluster1) · Wf2c0ᵀ + (x2 · Wc2f1ᵀ)[cluster2],
    y2 = x2 + mean(x1 over cluster2) · Wf2c1ᵀ,
  with the four linear layers and the three residual sums as pipelined regions and the cluster means and row look-ups
  as host operations between them; the reference computes the same three formulas on the host. Over the extended reals
  the two agree term by term: a linear layer is the same sum of 128 products on both sides, the sums of arrays are
  taken in the same order, and the means and look-ups are the same operations of the same arguments. No finiteness of
  the inputs is used.
-/
import proofs.«129119_j15255723835508_1_alg».proof.Defs
import proofs.«129119_j15255723835508_1_alg».proof.Proof.Gen.Kernel.Frame
import proofs.«129119_j15255723835508_1_alg».proof.Proof.Gen.KernelIdeal.Frame
import proofs.«129119_j15255723835508_1_alg».proof.Proof.Gen.ReferenceIdeal.Run
import proofs.«129119_j15255723835508_1_alg».proof.Proof.Gen.Pre_finite_inputs
import proofs.«129119_j15255723835508_1_alg».proof.Proof.RunNamed
import proofs.«129119_j15255723835508_1_alg».proof.Proof.Fold
import proofs.«129119_j15255723835508_1_alg».proof.Proof.RefTerms

set_option maxRecDepth 16384

noncomputable section

open Idealize.ShloMosaic Idealize.ShloMosaic.TcCoe Idealize.SL.Sem

namespace Cert.KernelIdeal.Hand

open Cert.KernelIdeal Cert.KernelIdeal.Gen Cert.Spec

/-- The idealized kernel's run with each result array as its formula of the arguments. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v40) = (addf (m ((c : Thread nD τ).loc main_arg0)) (pick1 (rowsByRows (n := 100000) (m ((c : Thread nD τ).loc main_arg1)) (m ((c : Thread nD τ).loc main_arg7))) (m ((c : Thread nD τ).loc main_arg3))) : FVec Ideal S1000000x128 .f32)
      ∧ r.2.mem ((c.tc : Thread nD τ).loc main_v41) = (addf (addf (m ((c : Thread nD τ).loc main_arg1)) (rowsByRows (n := 100000) (clusterMean1 (m ((c : Thread nD τ).loc main_arg0)) (m ((c : Thread nD τ).loc main_arg3))) (m ((c : Thread nD τ).loc main_arg5)))) (pick2 (rowsByRows (n := 10000) (m ((c : Thread nD τ).loc main_arg2)) (m ((c : Thread nD τ).loc main_arg8))) (m ((c : Thread nD τ).loc main_arg4))) : FVec Ideal S100000x128 .f32)
      ∧ r.2.mem ((c.tc : Thread nD τ).loc main_v42) = (addf (m ((c : Thread nD τ).loc main_arg2)) (rowsByRows (n := 10000) (clusterMean2 (m ((c : Thread nD τ).loc main_arg1)) (m ((c : Thread nD τ).loc main_arg4))) (m ((c : Thread nD τ).loc main_arg6))) : FVec Ideal S10000x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨(h c).1.trans (v40_at9 m ρ c), (h c).2.1.trans (v41_at9 m ρ c), (h c).2.2.1.trans (v42_at9 m ρ c), (h c).2.2.2⟩)
    (run_named m ρ)

end Cert.KernelIdeal.Hand

namespace Cert.Proof.Claims

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote nothing: the idealization is the program's own text read over the extended reals. -/
theorem preserves : Cert.preserves_Kernel_KernelIdeal := trivial

/-- Both programs end with the three formulas of the arguments: the kernel by its fold through the regions, the
    reference by its host operations' term with each linear layer read as rows against rows. -/
theorem algebraic : Cert.algebraic_KernelIdeal_ReferenceIdeal := by
  intro m ρ m' ρ' _ hagree
  refine ⟨_, _, _, Cert.KernelIdeal.Hand.run_values m ρ, ?_⟩
  refine (θ_run Cert.ReferenceIdeal.defs _ _).mono (fun _ h c => ?_) (Cert.ReferenceIdeal.Value.run (F := Ideal) m' ρ')
  obtain ⟨h0, h1, h2, hargs⟩ := h c
  obtain ⟨g0, g1, g2, g3, g4, g5, g6, g7, g8⟩ := hagree c
  refine ⟨h0.trans ?_, h1.trans ?_, h2.trans ?_, hargs⟩
  · rw [g0, g1, g3, g7]
    exact Cert.ReferenceIdeal.Hand.y0_eq _ _ _ _
  · rw [g0, g1, g2, g3, g4, g5, g8]
    exact Cert.ReferenceIdeal.Hand.y1_eq _ _ _ _ _ _ _
  · rw [g1, g2, g4, g6]
    exact Cert.ReferenceIdeal.Hand.y2_eq _ _ _ _

end Cert.Proof.Claims

end
-- ==== Proof.lean ====
/-
  The certificate of the multi-scale residual message-passing kernel against its reference: the three frames, the
  (empty) idealization ledger, and equality of the two idealized programs' results over the extended reals. The
  mathematics is in Proof/Claims.lean and the modules it imports: Proof/Spec.lean (a linear layer entry by entry),
  Proof/Linear*.lean and Proof/Residual*.lean (what each region leaves in its output array), Proof/HostTerms.lean (the
  host operations as whole-array functions), Proof/Fold.lean (every buffer at every boundary as a function of the
  arguments), Proof/RunNamed.lean (the kernel's run with its results named) and Proof/RefTerms.lean (the reference's
  terms as the same functions).
-/
import proofs.«129119_j15255723835508_1_alg».proof.Defs
import proofs.«129119_j15255723835508_1_alg».proof.Proof.Gen.Kernel
import proofs.«129119_j15255723835508_1_alg».proof.Proof.Gen.KernelIdeal
import proofs.«129119_j15255723835508_1_alg».proof.Proof.Gen.ReferenceIdeal
import proofs.«129119_j15255723835508_1_alg».proof.Proof.Gen.Pre_finite_inputs
import proofs.«129119_j15255723835508_1_alg».proof.Proof.Gen.ReferenceIdeal.Run
import proofs.«129119_j15255723835508_1_alg».proof.Proof.Gen.ReferenceIdeal.Read
import proofs.«129119_j15255723835508_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_kernel, Cert.Proof.Claims.frame_kernelIdeal, Cert.Proof.Claims.frame_referenceIdeal,
    Cert.Proof.Claims.preserves, Cert.Proof.Claims.algebraic⟩

end Cert.Proof

end
